-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩
abbrev S512 : Shape := ⟨1, ![512]⟩

abbrev nBuf : Space → Nat
  | .hbm => 11
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S4096x1024, .bf16⟩
  | .local _ .vmem, ⟨14, _⟩ => ⟨S4096x1024, .bf16⟩
  | .local _ .vmem, ⟨15, _⟩ => ⟨S512x1024, .f32⟩
  | .local _ .vmem, ⟨16, _⟩ => ⟨S512x1024, .f32⟩
  | .local _ .vmem, ⟨17, _⟩ => ⟨S512x1, .f32⟩
  | .local _ .vmem, ⟨18, _⟩ => ⟨S512x1, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_22 : BitVec 32 := 0#32
  let v49 : BitVec 1 := Scalar.cmpi .ne v48 c0_i32_22
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S512x1024 : S512x1024.ShapeCasts S512x1024
  transposes_S512x1024_p1_0_S1024x512 : S512x1024.Transposes [1, 0] S1024x512
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .bf16 = 32 ∨ (Rect.block (s := S4096x1024) S512x1024.size (cc0_transform_6 i) (hinb0_6 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x1024.size a ≤ S4096x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3_1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x4096, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x4096, .f32⟩
  | .hbm, ⟨26, _⟩ => ⟨S4096x4096, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KBRegion0.lean ====
/-
  The projection region (the first pallas_call) at the buffer contents V it is entered with: each grid point
  loads a [512,1024] row block of x and the three [1024,1024] weight matrices and stores the three products'
  row blocks, each output block one whole-buffer store of a pure function of the loaded blocks.
-/
import proofs.«138961_j39316130628151_2_alg».proof.Proof.Gen.Kernel.Launch
import proofs.«138961_j39316130628151_2_alg».proof.Proof.Gen.Kernel.Skeleton
import proofs.«138961_j39316130628151_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

abbrev r0_x : Rect S512x1024 := Rect.unit (s := S512x1024) ![0, 0] S512x1024.size inb_S512x1024_S512x1024_0_0
abbrev r0_w : Rect S1024x1024 := Rect.unit (s := S1024x1024) ![0, 0] S1024x1024.size inb_S1024x1024_S1024x1024_0_0

/-- The q block: the x block times Wq. -/
def out0_4 (x0 : Vec F S512x1024 .f32) (x1 : Vec F S1024x1024 .bf16) : Vec F S512x1024 .bf16 :=
  View.canon [⟨r0_x, k0_pay2 (View.ld x0 r0_x) (View.ld x1 r0_w)⟩]
/-- The k block: the x block times Wk. -/
def out0_5 (x0 : Vec F S512x1024 .f32) (x2 : Vec F S1024x1024 .bf16) : Vec F S512x1024 .bf16 :=
  View.canon [⟨r0_x, k0_pay3 (View.ld x0 r0_x) (View.ld x2 r0_w)⟩]
/-- The v block: the x block times Wv. -/
def out0_6 (x0 : Vec F S512x1024 .f32) (x3 : Vec F S1024x1024 .bf16) : Vec F S512x1024 .bf16 :=
  View.canon [⟨r0_x, k0_pay4 (View.ld x0 r0_x) (View.ld x3 r0_w)⟩]

theorem cover0_o (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

set_option maxHeartbeats 4000000 in
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole)
    (x0 : Vec F S512x1024 .f32) (x1 x2 x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  isplitl [H5]
  · iexists _; isplitr
    swap; · iexact H5
    ipureintro
    exact View.read_writes_eq_canon _ _ _ (cover0_o _)
  iexists _; isplitr
  swap; · iexact H6
  ipureintro
  exact View.read_writes_eq_canon _ _ _ (cover0_o _)

/-! ## The proof data of the projection region -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBShared.lean ====
/-
  What the runs of the attention region share: the two branch conditions of its body (the first key/value
  step of a row block resets the running maximum, normaliser and accumulator; the last one divides and stores
  the block), where they hold over the 8 × 8 grid, where the output window is idle, and the names of the
  staging and scratch memrefs a grid point runs on.
-/
import proofs.«138961_j39316130628151_2_alg».proof.Proof.Gen.Kernel.Launch
import proofs.«138961_j39316130628151_2_alg».proof.Proof.Gen.Kernel.Skeleton
import proofs.«138961_j39316130628151_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The attention body's branch conditions -/

/-- The body resets its three scratch buffers: the key/value step is the first of its row block. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The body divides the accumulator by the normaliser and stores the block: the step is the last of its row block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last step of a row block the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last step it is live. -/
theorem liveAt1_3 : ∀ t : Fin cfg1.N, cond1_1 (grid1.coords t) → cfg1.idle 3 (grid1.coords t) = false := by decide +kernel

/-! ## The memrefs a point runs on -/

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The scratch operands: the running maximum, the running normaliser, the running accumulator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view
/-- One staging buffer of the output window, through which its contents are stated. -/
abbrev VO1_3 : View sig .tc .vmem S512x1024 .f32 := (Memref.whole cc1_stg3_0 : Memref sig .tc .vmem S512x1024 .f32).view

end Cert.Kernel.Hand

end
-- ==== Proof.KBRunB.lean ====
/-
  The attention body at a middle key/value step of a row block (neither the first nor the last): it reads the
  key block, the query and value rows of the step and the three running quantities, and overwrites the running
  maximum, normaliser and accumulator; the output block is not touched.
-/
import proofs.«138961_j39316130628151_2_alg».proof.Proof.KBShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three scratch buffers (last first), with the proof that the body runs
    from the inputs' and scratch buffers' contents to the continuation holding them. -/
noncomputable def kernelRun1_B (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .bf16) (x1 : Vec F S4096x1024 .bf16) (x2 : Vec F S4096x1024 .bf16) (xs0 : Vec F S512x1 .f32) (xs1 : Vec F S512x1 .f32) (xs2 : Vec F S512x1024 .f32) :
    Σ' (LS0 : List (View.Piece (Elt F) S512x1 .f32)), Σ' (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KBRunA.lean ====
/-
  The attention body at the first key/value step of a row block: it first resets the running maximum to −∞ and the
  running normaliser and accumulator to zero, whatever they held, then performs the step's update; the output
  block is not touched.
-/
import proofs.«138961_j39316130628151_2_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .bf16) (x1 : Vec F S4096x1024 .bf16) (x2 : Vec F S4096x1024 .bf16) :
    Σ' (LS0 : List (View.Piece (Elt F) S512x1 .f32)), Σ' (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KBRunC.lean ====
/-
  The attention body at the last key/value step of a row block: after the step's update of the three running
  quantities it divides the accumulator by the normaliser, row by row, and stores the quotient as the output block.
-/
import proofs.«138961_j39316130628151_2_alg».proof.Proof.KBRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .bf16) (x1 : Vec F S4096x1024 .bf16) (x2 : Vec F S4096x1024 .bf16) (xs0 : Vec F S512x1 .f32) (xs1 : Vec F S512x1 .f32) (xs2 : Vec F S512x1024 .f32) :
    Σ' (L3 : List (View.Piece (Elt F) S512x1024 .f32)), Σ' (LS0 : List (View.Piece (Elt F) S512x1 .f32)), Σ' (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.KBFrame1.lean ====
/-
  The attention region (the second pallas_call) at the buffer contents V it is entered with.  The grid is 8 row
  blocks × 8 key/value steps; the running maximum, normaliser and accumulator live in three scratch buffers that
  are carried from one step to the next, reset at the first step of a row block and read out at the last.  Here:
  what the three scratch buffers (and, at a last step, the output block) hold after each grid point, as a
  recursion over the points; the invariant that hands the scratch contents from point to point; the proof data;
  and the body obligation, by cases on the position of the step within its row block.
-/
import proofs.«138961_j39316130628151_2_alg».proof.Proof.KBRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the scratch buffers and the output block: its pieces read back -/

section Cases
variable (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole)

theorem scover1_A_0 (hc0 : cond1_0 i) (hc1 : ¬cond1_1 i) (x0 : Vec F S512x1024 .bf16) (x1 x2 : Vec F S4096x1024 .bf16) (y : S512x1.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S512x1.size (by sl_kernel_rfl) y
def sout1_A_0 (hc0 : cond1_0 i) (hc1 : ¬cond1_1 i) (x0 : Vec F S512x1024 .bf16) (x1 x2 : Vec F S4096x1024 .bf16) : Vec F S512x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)
theorem scover1_A_1 (hc0 : cond1_0 i) (hc1 : ¬cond1_1 i) (x0 : Vec F S512x1024 .bf16) (x1 x2 : Vec F S4096x1024 .bf16) (y : S512x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S512x1.size (by sl_kernel_rfl) y
def sout1_A_1 (hc0 : cond1_0 i) (hc1 : ¬cond1_1 i) (x0 : Vec F S512x1024 .bf16) (x1 x2 : Vec F S4096x1024 .bf16) : Vec F S512x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)
theorem scover1_A_2 (hc0 : cond1_0 i) (hc1 : ¬cond1_1 i) (x0 : Vec F S512x1024 .bf16) (x1 x2 : Vec F S4096x1024 .bf16) (y : S512x1024.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S512x1024.size (by sl_kernel_rfl) y
def sout1_A_2 (hc0 : cond1_0 i) (hc1 : ¬cond1_1 i) (x0 : Vec F S512x1024 .bf16) (x1 x2 : Vec F S4096x1024 .bf16) : Vec F S512x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.1)

theorem scover1_B_0 (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S512x1.size (by sl_kernel_rfl) y
def sout1_B_0 (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).1)
theorem scover1_B_1 (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S512x1.size (by sl_kernel_rfl) y
def sout1_B_1 (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.1)
theorem scover1_B_2 (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S512x1024.size (by sl_kernel_rfl) y
def sout1_B_2 (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.1)

theorem scover1_C_0 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S512x1.size (by sl_kernel_rfl) y
def sout1_C_0 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)
theorem scover1_C_1 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S512x1.size (by sl_kernel_rfl) y
def sout1_C_1 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)
theorem scover1_C_2 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S512x1024.size (by sl_kernel_rfl) y
def sout1_C_2 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)
theorem cover1_C_3 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S512x1024.size (by sl_kernel_rfl) y
def out1_C_3 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) : Vec F S512x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

end Cases

/-- The output block at a point that stores nothing into it: a placeholder nothing consults. -/
def junkOut : Vec F S512x1024 .f32 := VO1_3.read (Elt F) (VO1_3.writes (Elt F) VO1_3.junk [])

/-! ## The three cases at a grid point -/

theorem notLast_of_first (t : Fin cfg1.N) (h0 : t.val % 8 = 0) : ¬cond1_1 (grid1.coords t) :=
  fun h => by have := (hcond1_1 t).mp h; omega
theorem notFirst_of_last (t : Fin cfg1.N) (h1 : t.val % 8 = 7) : ¬cond1_0 (grid1.coords t) :=
  fun h => by have := (hcond1_0 t).mp h; omega

/-- The scratch contents after a first step. -/
def ptA (c : Dev nD) (t : Fin cfg1.N) (h0 : t.val % 8 = 0) : Vec F S512x1 .f32 × Vec F S512x1 .f32 × Vec F S512x1024 .f32 :=
  (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (notLast_of_first t h0) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (notLast_of_first t h0) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (notLast_of_first t h0) (iblk1 V c 0 t) (iblk1 V c 1 t) (iblk1 V c 2 t))

/-- The scratch contents after a middle step, from those the step before left. -/
def ptB (c : Dev nD) (t : Fin cfg1.N) (h0 : ¬t.val % 8 = 0) (h1 : ¬t.val % 8 = 7) (xs : Vec F S512x1 .f32 × Vec F S512x1 .f32 × Vec F S512x1024 .f32) : Vec F S512x1 .f32 × Vec F S512x1 .f32 × Vec F S512x1024 .f32 :=
  (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) xs.1 xs.2.1 xs.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) xs.1 xs.2.1 xs.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) xs.1 xs.2.1 xs.2.2)

/-- The output block and the scratch contents after a last step, from those the step before left. -/
def ptC (c : Dev nD) (t : Fin cfg1.N) (h1 : t.val % 8 = 7) (xs : Vec F S512x1 .f32 × Vec F S512x1 .f32 × Vec F S512x1024 .f32) : Vec F S512x1024 .f32 × Vec F S512x1 .f32 × Vec F S512x1 .f32 × Vec F S512x1024 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (notFirst_of_last t h1) ((hcond1_1 t).mpr h1) (iblk1 V c 0 t) (iblk1 V c 1 t) (iblk1 V c 2 t) xs.1 xs.2.1 xs.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (notFirst_of_last t h1) ((hcond1_1 t).mpr h1) (iblk1 V c 0 t) (iblk1 V c 1 t) (iblk1 V c 2 t) xs.1 xs.2.1 xs.2.2,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (notFirst_of_last t h1) ((hcond1_1 t).mpr h1) (iblk1 V c 0 t) (iblk1 V c 1 t) (iblk1 V c 2 t) xs.1 xs.2.1 xs.2.2,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (notFirst_of_last t h1) ((hcond1_1 t).mpr h1) (iblk1 V c 0 t) (iblk1 V c 1 t) (iblk1 V c 2 t) xs.1 xs.2.1 xs.2.2)

/-! ## What the buffers hold after each point -/

/-- After the body at position n: the output window's staging block (meaningful at a last step only) and the
    three scratch buffers — the case the position selects, run on what the position before left. -/
def outsAt1 (c : Dev nD) : (n : ℕ) → n < cfg1.N → Vec F S512x1024 .f32 × Vec F S512x1 .f32 × Vec F S512x1 .f32 × Vec F S512x1024 .f32
  | 0, hn => (junkOut, ptA V c ⟨0, hn⟩ (Nat.zero_mod 8))
  | n + 1, hn =>
    if h0 : (n + 1) % 8 = 0 then (junkOut, ptA V c ⟨n + 1, hn⟩ h0)
    else if h1 : (n + 1) % 8 = 7 then ptC V c ⟨n + 1, hn⟩ h1 (outsAt1 c n (Nat.lt_of_succ_lt hn)).2
    else (junkOut, ptB V c ⟨n + 1, hn⟩ h0 h1 (outsAt1 c n (Nat.lt_of_succ_lt hn)).2)

theorem outsAt1_A (c : Dev nD) (t : Fin cfg1.N) (h0 : t.val % 8 = 0) :
    outsAt1 V c t.val t.isLt = (junkOut, ptA V c t h0) := by
  obtain ⟨n, hn⟩ := t
  cases n with
  | zero => rfl
  | succ n => exact dif_pos h0

theorem outsAt1_B (c : Dev nD) (t : Fin cfg1.N) (h0 : ¬t.val % 8 = 0) (h1 : ¬t.val % 8 = 7) :
    outsAt1 V c t.val t.isLt = (junkOut, ptB V c t h0 h1 (outsAt1 V c (t.val - 1) (Nat.lt_of_le_of_lt (Nat.sub_le _ _) t.isLt)).2) := by
  obtain ⟨n, hn⟩ := t
  cases n with
  | zero => exact absurd (Nat.zero_mod 8) h0
  | succ n => exact (dif_neg h0).trans ((dif_neg h1).trans rfl)

theorem outsAt1_C (c : Dev nD) (t : Fin cfg1.N) (h1 : t.val % 8 = 7) :
    outsAt1 V c t.val t.isLt = ptC V c t h1 (outsAt1 V c (t.val - 1) (Nat.lt_of_le_of_lt (Nat.sub_le _ _) t.isLt)).2 := by
  obtain ⟨n, hn⟩ := t
  cases n with
  | zero => exact absurd h1 (by show ¬ (0 % 8 = 7); decide)
  | succ n => exact (dif_neg (by dsimp only at h1 ⊢; omega)).trans ((dif_pos h1).trans rfl)

/-! ## The invariant: the scratch contents handed from point to point -/

/-- The scoped buffers of the core that are neither staging buffers of this region nor its scratch — the staging
    buffers of the projection region — at some contents each, then the three scratch buffers as P0, P1, P2 say,
    and the core's pseudo-random number register at some state. -/
def PhiShape (c : Dev nD) (P0 P1 P2 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P0 ∗ P1 ∗ P2) ∗ (∃ r, prngReg c r))

/-- Everything of the shape but the scratch. -/
def oth1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)) ∗ (∃ r, prngReg c r))

theorem PhiShape_split (c : Dev nD) (P0 P1 P2 : sProp 𝕄) : PhiShape (F := F) c P0 P1 P2 ⊢ iprop(P0 ∗ P1 ∗ P2 ∗ oth1 (F := F) c) := by
  unfold PhiShape oth1
  iintro ⟨⟨A0, A1, A2, A3, A4, A5, A6, A7, A8, A9, A10, H0, H1, H2⟩, Hg⟩
  isplitl [H0]; · iexact H0
  isplitl [H1]; · iexact H1
  isplitl [H2]; · iexact H2
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  iexact Hg

theorem PhiShape_join (c : Dev nD) (P0 P1 P2 : sProp 𝕄) : iprop(P0 ∗ P1 ∗ P2 ∗ oth1 (F := F) c) ⊢ PhiShape (F := F) c P0 P1 P2 := by
  unfold PhiShape oth1
  iintro ⟨H0, H1, H2, ⟨A0, A1, A2, A3, A4, A5, A6, A7, A8, A9, A10⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [H0]; · iexact H0
    isplitl [H1]; · iexact H1
    iexact H2
  iexact Hg

/-- The class invariant (every scoped non-staging buffer at anything) in this shape. -/
theorem PhiA1_eq (c : Dev nD) :
    (Pipeline.ΦA spec1 c : sProp 𝕄)
      = PhiShape c iprop(∃ d, owns (c : Thread nD τ) scM1_0 fullShare d) iprop(∃ d, owns (c : Thread nD τ) scM1_1 fullShare d) iprop(∃ d, owns (c : Thread nD τ) scM1_2 fullShare d) := by
  unfold Pipeline.ΦA PhiShape; rw [scopedRest1_eq]; simp only [scM1_0, scM1_1, scM1_2, owns_whole]; try rfl

/-- Before the first point: the class invariant. After point n: the three scratch buffers at what that point left. -/
def PhiS (c : Dev nD) : (n : ℕ) → n ≤ cfg1.N → sProp 𝕄
  | 0, _ => Pipeline.ΦA spec1 c
  | n + 1, hn => PhiShape c (owns (c : Thread nD τ) scM1_0 fullShare (outsAt1 V c n hn).2.1)
      (owns (c : Thread nD τ) scM1_1 fullShare (outsAt1 V c n hn).2.2.1) (owns (c : Thread nD τ) scM1_2 fullShare (outsAt1 V c n hn).2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiShape c (owns (c : Thread nD τ) scM1_0 fullShare (outsAt1 V c n hn).2.1)
      (owns (c : Thread nD τ) scM1_1 fullShare (outsAt1 V c n hn).2.2.1) (owns (c : Thread nD τ) scM1_2 fullShare (outsAt1 V c n hn).2.2.2) := rfl

theorem PhiS_pos (c : Dev nD) (n : ℕ) (h : n ≤ cfg1.N) (hz : n ≠ 0) :
    PhiS V c n h = PhiShape c (owns (c : Thread nD τ) scM1_0 fullShare (outsAt1 V c (n - 1) (by omega)).2.1)
      (owns (c : Thread nD τ) scM1_1 fullShare (outsAt1 V c (n - 1) (by omega)).2.2.1) (owns (c : Thread nD τ) scM1_2 fullShare (outsAt1 V c (n - 1) (by omega)).2.2.2) := by
  cases n with
  | zero => exact absurd rfl hz
  | succ n => rfl

/-! ## The proof data of the attention region -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.KBBody1.lean ====
/-
  The body obligation of the attention region: at every grid point the body, handed the key block, the whole query
  and value arrays, the output block's buffer and the three scratch buffers at what the step before left (at
  anything before the first point, and wherever a first step resets them), leaves the scratch buffers at this
  point's contents — by the position of the step within its row block (first, middle, last).
-/
import proofs.«138961_j39316130628151_2_alg».proof.Proof.KBFrame1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 64 := lt_of_lt_of_eq t.isLt (show cfg1.N = 64 from N_1)
  by_cases h0 : t.val % 8 = 0
  · -- the first step of a row block
    rw [Dat.leavesExact_idle (dat1 V c) 3 t (idleAt1_3 t (notLast_of_first t h0)) (noFlush1_3 t (notLast_of_first t h0))]
    rw [outsAt1_A V c t h0]
    unfold ptA; dsimp only
    unfold sout1_A_0 sout1_A_1 sout1_A_2
    by_cases hz : t.val = 0
    · rw [PhiS_castSucc V c t, PhiS_zero V c _ _ hz, PhiA1_eq]
      iintro ⟨HΦ, Ho, ⟨%d0, H0⟩, ⟨%d1, H1⟩, ⟨%d2, H2⟩, ⟨%d3, H3⟩⟩
      ihave HΦ' := (PhiShape_split c _ _ _) $$ HΦ
      icases HΦ' with ⟨HS0, HS1, HS2, Hoth⟩
      iapply ((kernelRun1_A c (grid1.coords t) _ _ _ _ _ _ _ _ _ _ _ _ _ _ ((hcond1_0 t).mpr h0) (notLast_of_first t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hoth]
      · iapply (PhiShape_join c _ _ _)
        isplitl [HS0]
        · unfold owns; iexists _; isplitr
          swap; · iexact HS0
          ipureintro; exact View.read_writes_of_cover _ _ _ _ _ (scover1_A_0 c _ _ _ _ _ _ _ _ _ _ _ _ _ _ _ _ _ _ _ _ )
        isplitl [HS1]
        · unfold owns; iexists _; isplitr
          swap; · iexact HS1
          ipureintro; exact View.read_writes_of_cover _ _ _ _ _ (scover1_A_1 c _ _ _ _ _ _ _ _ _ _ _ _ _ _ _ _ _ _ _ _ )
        isplitl [HS2]
        · unfold owns; iexists _; isplitr
          swap; · iexact HS2
          ipureintro; exact View.read_writes_of_cover _ _ _ _ _ (scover1_A_2 c _ _ _ _ _ _ _ _ _ _ _ _ _ _ _ _ _ _ _ _ )
        iexact Hoth
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨HΦ, Ho, ⟨%d0, H0⟩, ⟨%d1, H1⟩, ⟨%d2, H2⟩, ⟨%d3, H3⟩⟩
      ihave HΦ' := (PhiShape_split c _ _ _) $$ HΦ
      icases HΦ' with ⟨HS0, HS1, HS2, Hoth⟩
      iapply ((kernelRun1_A c (grid1.coords t) _ _ _ _ _ _ _ _ _ _ _ _ _ _ ((hcond1_0 t).mpr h0) (notLast_of_first t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hoth]
      · iapply (PhiShape_join c _ _ _)
        isplitl [HS0]
        · unfold owns; iexists _; isplitr
          swap; · iexact HS0
          ipureintro; exact View.read_writes_of_cover _ _ _ _ _ (scover1_A_0 c _ _ _ _ _ _ _ _ _ _ _ _ _ _ _ _ _ _ _ _ )
        isplitl [HS1]
        · unfold owns; iexists _; isplitr
          swap; · iexact HS1
          ipureintro; exact View.read_writes_of_cover _ _ _ _ _ (scover1_A_1 c _ _ _ _ _ _ _ _ _ _ _ _ _ _ _ _ _ _ _ _ )
        isplitl [HS2]
        · unfold owns; iexists _; isplitr
          swap; · iexact HS2
          ipureintro; exact View.read_writes_of_cover _ _ _ _ _ (scover1_A_2 c _ _ _ _ _ _ _ _ _ _ _ _ _ _ _ _ _ _ _ _ )
        iexact Hoth
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · -- the last step of a row block
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h1]
      unfold ptC; dsimp only
      unfold out1_C_3 sout1_C_0 sout1_C_1 sout1_C_2
      rw [PhiS_castSucc V c t, PhiS_pos V c _ _ hz]
      iintro ⟨HΦ, Ho, ⟨%d0, H0⟩, ⟨%d1, H1⟩, ⟨%d2, H2⟩, ⟨%d3, H3⟩⟩
      ihave HΦ' := (PhiShape_split c _ _ _) $$ HΦ
      icases HΦ' with ⟨HS0, HS1, HS2, Hoth⟩
      iapply ((kernelRun1_C c (grid1.coords t) _ _ _ _ _ _ _ _ _ _ _ _ _ _ (notFirst_of_last t h1) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hoth]
      · iapply (PhiShape_join c _ _ _)
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ )
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ )
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ )
        iexact Hoth
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _ )
    · -- a middle step
      rw [Dat.leavesExact_idle (dat1 V c) 3 t (idleAt1_3 t (fun h => h1 ((hcond1_1 t).mp h))) (noFlush1_3 t (fun h => h1 ((hcond1_1 t).mp h)))]
      rw [outsAt1_B V c t h0 h1]
      unfold ptB; dsimp only
      unfold sout1_B_0 sout1_B_1 sout1_B_2
      rw [PhiS_castSucc V c t, PhiS_pos V c _ _ hz]
      iintro ⟨HΦ, Ho, ⟨%d0, H0⟩, ⟨%d1, H1⟩, ⟨%d2, H2⟩, ⟨%d3, H3⟩⟩
      ihave HΦ' := (PhiShape_split c _ _ _) $$ HΦ
      icases HΦ' with ⟨HS0, HS1, HS2, Hoth⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hoth]
      · iapply (PhiShape_join c _ _ _)
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ )
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ )
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ )
        iexact Hoth
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro HΦ
  ihave HΦ' := (PhiShape_split c _ _ _) $$ HΦ
  icases HΦ' with ⟨HS0, HS1, HS2, Hoth⟩
  iapply (PhiShape_join c _ _ _)
  isplitl [HS0]; · iexists _; iexact HS0
  isplitl [HS1]; · iexists _; iexact HS1
  isplitl [HS2]; · iexists _; iexact HS2
  iexact Hoth

end Cert.Kernel.Hand

end
-- ==== Proof.KBRun.lean ====
/-
  The whole run of the kernel program: the host stretch that rounds the three weight matrices, then the projection
  region, then the attention region.  The buffer contents at each boundary are a fold from the launch memory (a host
  stretch's results; a region's arrays at what its write-backs leave); every weakly fair execution terminates and
  every unscoped buffer ends at the last boundary's contents.  From it: the four argument arrays end as launched,
  and the result array holds what the attention region's write-backs leave.
-/
import proofs.«138961_j39316130628151_2_alg».proof.Proof.KBRegion0
import proofs.«138961_j39316130628151_2_alg».proof.Proof.KBBody1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)
/-- After the host stretch (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the attention region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No host operation and no region writes an argument -/

theorem W1_of_not_written (c : Dev nD) (b : Ref sig .tc) (h1 : b ≠ main_v0) (h2 : b ≠ main_v1) (h3 : b ≠ main_v2) :
    W1 m c (Proc.devRef .tc b) = W0 m c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h1, StableHlo.devRef_ne_of_ne h2, StableHlo.devRef_ne_of_ne h3⟩))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_not_written m c main_arg0 (by decide) (by decide) (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of_not_written m c main_arg1 (by decide) (by decide) (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of_not_written m c main_arg2 (by decide) (by decide) (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_not_written m c main_arg3 (by decide) (by decide) (by decide)
    _ = m ((c : Thread nD τ).loc main_arg3) := rfl

/-- The result array ends at what the attention region's write-backs leave. -/
theorem W3_main_v4 (c : Dev nD) : W3 m c (Proc.devRef .tc main_v4) = (dat1 (V2 m) c).arrAt 3 cfg1.N :=
  W3_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the core's pseudo-random number register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ (Pipeline.ucRefs τ sig) :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer of every core ends at the last boundary's contents. -/
theorem run_all (ρ : Dev nD → PrngReg) : θ_run defs (onTc (τ := τ) (main (F := F))) ⟨m, fun _ => 0, ρ⟩ (fun r => ∀ c : Dev nD,
      ∀ b ∈ (Pipeline.ucRefs τ sig), r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ (Pipeline.ucRefs τ sig), s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame claim's post at any F: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result array named: it ends at what the attention region's write-backs leave. -/
theorem run_value (ρ : Dev nD → PrngReg) : θ_run defs (onTc (τ := τ) (main (F := F))) ⟨m, fun _ => 0, ρ⟩ (fun r => ∀ c : Dev nD,
      r.2.mem ((c.tc : Thread nD τ).loc main_v4) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (W3_main_v4 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Hand

end
-- ==== Proof.KIRegion0.lean ====
/-
  The projection region (the first pallas_call) at the buffer contents V it is entered with: each grid point
  loads a [512,1024] row block of x and the three [1024,1024] weight matrices and stores the three products'
  row blocks, each output block one whole-buffer store of a pure function of the loaded blocks.
-/
import proofs.«138961_j39316130628151_2_alg».proof.Proof.Gen.KernelIdeal.Launch
import proofs.«138961_j39316130628151_2_alg».proof.Proof.Gen.KernelIdeal.Skeleton
import proofs.«138961_j39316130628151_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

abbrev r0_x : Rect S512x1024 := Rect.unit (s := S512x1024) ![0, 0] S512x1024.size inb_S512x1024_S512x1024_0_0
abbrev r0_w : Rect S1024x1024 := Rect.unit (s := S1024x1024) ![0, 0] S1024x1024.size inb_S1024x1024_S1024x1024_0_0

/-- The q block: the x block times Wq. -/
def out0_4 (x0 : Vec F S512x1024 .f32) (x1 : Vec F S1024x1024 .bf16) : Vec F S512x1024 .bf16 :=
  View.canon [⟨r0_x, k0_pay2 (View.ld x0 r0_x) (View.ld x1 r0_w)⟩]
/-- The k block: the x block times Wk. -/
def out0_5 (x0 : Vec F S512x1024 .f32) (x2 : Vec F S1024x1024 .bf16) : Vec F S512x1024 .bf16 :=
  View.canon [⟨r0_x, k0_pay3 (View.ld x0 r0_x) (View.ld x2 r0_w)⟩]
/-- The v block: the x block times Wv. -/
def out0_6 (x0 : Vec F S512x1024 .f32) (x3 : Vec F S1024x1024 .bf16) : Vec F S512x1024 .bf16 :=
  View.canon [⟨r0_x, k0_pay4 (View.ld x0 r0_x) (View.ld x3 r0_w)⟩]

theorem cover0_o (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

set_option maxHeartbeats 4000000 in
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole)
    (x0 : Vec F S512x1024 .f32) (x1 x2 x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  isplitl [H5]
  · iexists _; isplitr
    swap; · iexact H5
    ipureintro
    exact View.read_writes_eq_canon _ _ _ (cover0_o _)
  iexists _; isplitr
  swap; · iexact H6
  ipureintro
  exact View.read_writes_eq_canon _ _ _ (cover0_o _)

/-! ## The proof data of the projection region -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIShared.lean ====
/-
  What the runs of the attention region share: the two branch conditions of its body (the first key/value
  step of a row block resets the running maximum, normaliser and accumulator; the last one divides and stores
  the block), where they hold over the 8 × 8 grid, where the output window is idle, and the names of the
  staging and scratch memrefs a grid point runs on.
-/
import proofs.«138961_j39316130628151_2_alg».proof.Proof.Gen.KernelIdeal.Launch
import proofs.«138961_j39316130628151_2_alg».proof.Proof.Gen.KernelIdeal.Skeleton
import proofs.«138961_j39316130628151_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The attention body's branch conditions -/

/-- The body resets its three scratch buffers: the key/value step is the first of its row block. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The body divides the accumulator by the normaliser and stores the block: the step is the last of its row block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last step of a row block the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last step it is live. -/
theorem liveAt1_3 : ∀ t : Fin cfg1.N, cond1_1 (grid1.coords t) → cfg1.idle 3 (grid1.coords t) = false := by decide +kernel

/-! ## The memrefs a point runs on -/

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The scratch operands: the running maximum, the running normaliser, the running accumulator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view
/-- One staging buffer of the output window, through which its contents are stated. -/
abbrev VO1_3 : View sig .tc .vmem S512x1024 .f32 := (Memref.whole cc1_stg3_0 : Memref sig .tc .vmem S512x1024 .f32).view

end Cert.KernelIdeal.Hand

end
-- ==== Proof.KIRunB.lean ====
/-
  The attention body at a middle key/value step of a row block (neither the first nor the last): it reads the
  key block, the query and value rows of the step and the three running quantities, and overwrites the running
  maximum, normaliser and accumulator; the output block is not touched.
-/
import proofs.«138961_j39316130628151_2_alg».proof.Proof.KIShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three scratch buffers (last first), with the proof that the body runs
    from the inputs' and scratch buffers' contents to the continuation holding them. -/
noncomputable def kernelRun1_B (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .bf16) (x1 : Vec F S4096x1024 .bf16) (x2 : Vec F S4096x1024 .bf16) (xs0 : Vec F S512x1 .f32) (xs1 : Vec F S512x1 .f32) (xs2 : Vec F S512x1024 .f32) :
    Σ' (LS0 : List (View.Piece (Elt F) S512x1 .f32)), Σ' (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KIRunA.lean ====
/-
  The attention body at the first key/value step of a row block: it first resets the running maximum to −∞ and the
  running normaliser and accumulator to zero, whatever they held, then performs the step's update; the output
  block is not touched.
-/
import proofs.«138961_j39316130628151_2_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .bf16) (x1 : Vec F S4096x1024 .bf16) (x2 : Vec F S4096x1024 .bf16) :
    Σ' (LS0 : List (View.Piece (Elt F) S512x1 .f32)), Σ' (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KIRunC.lean ====
/-
  The attention body at the last key/value step of a row block: after the step's update of the three running
  quantities it divides the accumulator by the normaliser, row by row, and stores the quotient as the output block.
-/
import proofs.«138961_j39316130628151_2_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .bf16) (x1 : Vec F S4096x1024 .bf16) (x2 : Vec F S4096x1024 .bf16) (xs0 : Vec F S512x1 .f32) (xs1 : Vec F S512x1 .f32) (xs2 : Vec F S512x1024 .f32) :
    Σ' (L3 : List (View.Piece (Elt F) S512x1024 .f32)), Σ' (LS0 : List (View.Piece (Elt F) S512x1 .f32)), Σ' (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KIFrame1.lean ====
/-
  The attention region (the second pallas_call) at the buffer contents V it is entered with.  The grid is 8 row
  blocks × 8 key/value steps; the running maximum, normaliser and accumulator live in three scratch buffers that
  are carried from one step to the next, reset at the first step of a row block and read out at the last.  Here:
  what the three scratch buffers (and, at a last step, the output block) hold after each grid point, as a
  recursion over the points; the invariant that hands the scratch contents from point to point; the proof data;
  and the body obligation, by cases on the position of the step within its row block.
-/
import proofs.«138961_j39316130628151_2_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the scratch buffers and the output block: its pieces read back -/

section Cases
variable (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole)

theorem scover1_A_0 (hc0 : cond1_0 i) (hc1 : ¬cond1_1 i) (x0 : Vec F S512x1024 .bf16) (x1 x2 : Vec F S4096x1024 .bf16) (y : S512x1.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S512x1.size (by sl_kernel_rfl) y
def sout1_A_0 (hc0 : cond1_0 i) (hc1 : ¬cond1_1 i) (x0 : Vec F S512x1024 .bf16) (x1 x2 : Vec F S4096x1024 .bf16) : Vec F S512x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)
theorem scover1_A_1 (hc0 : cond1_0 i) (hc1 : ¬cond1_1 i) (x0 : Vec F S512x1024 .bf16) (x1 x2 : Vec F S4096x1024 .bf16) (y : S512x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S512x1.size (by sl_kernel_rfl) y
def sout1_A_1 (hc0 : cond1_0 i) (hc1 : ¬cond1_1 i) (x0 : Vec F S512x1024 .bf16) (x1 x2 : Vec F S4096x1024 .bf16) : Vec F S512x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)
theorem scover1_A_2 (hc0 : cond1_0 i) (hc1 : ¬cond1_1 i) (x0 : Vec F S512x1024 .bf16) (x1 x2 : Vec F S4096x1024 .bf16) (y : S512x1024.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S512x1024.size (by sl_kernel_rfl) y
def sout1_A_2 (hc0 : cond1_0 i) (hc1 : ¬cond1_1 i) (x0 : Vec F S512x1024 .bf16) (x1 x2 : Vec F S4096x1024 .bf16) : Vec F S512x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.1)

theorem scover1_B_0 (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S512x1.size (by sl_kernel_rfl) y
def sout1_B_0 (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).1)
theorem scover1_B_1 (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S512x1.size (by sl_kernel_rfl) y
def sout1_B_1 (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.1)
theorem scover1_B_2 (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S512x1024.size (by sl_kernel_rfl) y
def sout1_B_2 (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.1)

theorem scover1_C_0 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S512x1.size (by sl_kernel_rfl) y
def sout1_C_0 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)
theorem scover1_C_1 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S512x1.size (by sl_kernel_rfl) y
def sout1_C_1 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)
theorem scover1_C_2 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S512x1024.size (by sl_kernel_rfl) y
def sout1_C_2 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)
theorem cover1_C_3 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S512x1024.size (by sl_kernel_rfl) y
def out1_C_3 (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) : Vec F S512x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

end Cases

/-- The output block at a point that stores nothing into it: a placeholder nothing consults. -/
def junkOut : Vec F S512x1024 .f32 := VO1_3.read (Elt F) (VO1_3.writes (Elt F) VO1_3.junk [])

/-! ## The three cases at a grid point -/

theorem notLast_of_first (t : Fin cfg1.N) (h0 : t.val % 8 = 0) : ¬cond1_1 (grid1.coords t) :=
  fun h => by have := (hcond1_1 t).mp h; omega
theorem notFirst_of_last (t : Fin cfg1.N) (h1 : t.val % 8 = 7) : ¬cond1_0 (grid1.coords t) :=
  fun h => by have := (hcond1_0 t).mp h; omega

/-- The scratch contents after a first step. -/
def ptA (c : Dev nD) (t : Fin cfg1.N) (h0 : t.val % 8 = 0) : Vec F S512x1 .f32 × Vec F S512x1 .f32 × Vec F S512x1024 .f32 :=
  (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (notLast_of_first t h0) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (notLast_of_first t h0) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (notLast_of_first t h0) (iblk1 V c 0 t) (iblk1 V c 1 t) (iblk1 V c 2 t))

/-- The scratch contents after a middle step, from those the step before left. -/
def ptB (c : Dev nD) (t : Fin cfg1.N) (h0 : ¬t.val % 8 = 0) (h1 : ¬t.val % 8 = 7) (xs : Vec F S512x1 .f32 × Vec F S512x1 .f32 × Vec F S512x1024 .f32) : Vec F S512x1 .f32 × Vec F S512x1 .f32 × Vec F S512x1024 .f32 :=
  (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) xs.1 xs.2.1 xs.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) xs.1 xs.2.1 xs.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) xs.1 xs.2.1 xs.2.2)

/-- The output block and the scratch contents after a last step, from those the step before left. -/
def ptC (c : Dev nD) (t : Fin cfg1.N) (h1 : t.val % 8 = 7) (xs : Vec F S512x1 .f32 × Vec F S512x1 .f32 × Vec F S512x1024 .f32) : Vec F S512x1024 .f32 × Vec F S512x1 .f32 × Vec F S512x1 .f32 × Vec F S512x1024 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (notFirst_of_last t h1) ((hcond1_1 t).mpr h1) (iblk1 V c 0 t) (iblk1 V c 1 t) (iblk1 V c 2 t) xs.1 xs.2.1 xs.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (notFirst_of_last t h1) ((hcond1_1 t).mpr h1) (iblk1 V c 0 t) (iblk1 V c 1 t) (iblk1 V c 2 t) xs.1 xs.2.1 xs.2.2,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (notFirst_of_last t h1) ((hcond1_1 t).mpr h1) (iblk1 V c 0 t) (iblk1 V c 1 t) (iblk1 V c 2 t) xs.1 xs.2.1 xs.2.2,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (notFirst_of_last t h1) ((hcond1_1 t).mpr h1) (iblk1 V c 0 t) (iblk1 V c 1 t) (iblk1 V c 2 t) xs.1 xs.2.1 xs.2.2)

/-! ## What the buffers hold after each point -/

/-- After the body at position n: the output window's staging block (meaningful at a last step only) and the
    three scratch buffers — the case the position selects, run on what the position before left. -/
def outsAt1 (c : Dev nD) : (n : ℕ) → n < cfg1.N → Vec F S512x1024 .f32 × Vec F S512x1 .f32 × Vec F S512x1 .f32 × Vec F S512x1024 .f32
  | 0, hn => (junkOut, ptA V c ⟨0, hn⟩ (Nat.zero_mod 8))
  | n + 1, hn =>
    if h0 : (n + 1) % 8 = 0 then (junkOut, ptA V c ⟨n + 1, hn⟩ h0)
    else if h1 : (n + 1) % 8 = 7 then ptC V c ⟨n + 1, hn⟩ h1 (outsAt1 c n (Nat.lt_of_succ_lt hn)).2
    else (junkOut, ptB V c ⟨n + 1, hn⟩ h0 h1 (outsAt1 c n (Nat.lt_of_succ_lt hn)).2)

theorem outsAt1_A (c : Dev nD) (t : Fin cfg1.N) (h0 : t.val % 8 = 0) :
    outsAt1 V c t.val t.isLt = (junkOut, ptA V c t h0) := by
  obtain ⟨n, hn⟩ := t
  cases n with
  | zero => rfl
  | succ n => exact dif_pos h0

theorem outsAt1_B (c : Dev nD) (t : Fin cfg1.N) (h0 : ¬t.val % 8 = 0) (h1 : ¬t.val % 8 = 7) :
    outsAt1 V c t.val t.isLt = (junkOut, ptB V c t h0 h1 (outsAt1 V c (t.val - 1) (Nat.lt_of_le_of_lt (Nat.sub_le _ _) t.isLt)).2) := by
  obtain ⟨n, hn⟩ := t
  cases n with
  | zero => exact absurd (Nat.zero_mod 8) h0
  | succ n => exact (dif_neg h0).trans ((dif_neg h1).trans rfl)

theorem outsAt1_C (c : Dev nD) (t : Fin cfg1.N) (h1 : t.val % 8 = 7) :
    outsAt1 V c t.val t.isLt = ptC V c t h1 (outsAt1 V c (t.val - 1) (Nat.lt_of_le_of_lt (Nat.sub_le _ _) t.isLt)).2 := by
  obtain ⟨n, hn⟩ := t
  cases n with
  | zero => exact absurd h1 (by show ¬ (0 % 8 = 7); decide)
  | succ n => exact (dif_neg (by dsimp only at h1 ⊢; omega)).trans ((dif_pos h1).trans rfl)

/-! ## The invariant: the scratch contents handed from point to point -/

/-- The scoped buffers of the core that are neither staging buffers of this region nor its scratch — the staging
    buffers of the projection region — at some contents each, then the three scratch buffers as P0, P1, P2 say,
    and the core's pseudo-random number register at some state. -/
def PhiShape (c : Dev nD) (P0 P1 P2 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P0 ∗ P1 ∗ P2) ∗ (∃ r, prngReg c r))

/-- Everything of the shape but the scratch. -/
def oth1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)) ∗ (∃ r, prngReg c r))

theorem PhiShape_split (c : Dev nD) (P0 P1 P2 : sProp 𝕄) : PhiShape (F := F) c P0 P1 P2 ⊢ iprop(P0 ∗ P1 ∗ P2 ∗ oth1 (F := F) c) := by
  unfold PhiShape oth1
  iintro ⟨⟨A0, A1, A2, A3, A4, A5, A6, A7, A8, A9, A10, H0, H1, H2⟩, Hg⟩
  isplitl [H0]; · iexact H0
  isplitl [H1]; · iexact H1
  isplitl [H2]; · iexact H2
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  iexact Hg

theorem PhiShape_join (c : Dev nD) (P0 P1 P2 : sProp 𝕄) : iprop(P0 ∗ P1 ∗ P2 ∗ oth1 (F := F) c) ⊢ PhiShape (F := F) c P0 P1 P2 := by
  unfold PhiShape oth1
  iintro ⟨H0, H1, H2, ⟨A0, A1, A2, A3, A4, A5, A6, A7, A8, A9, A10⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [H0]; · iexact H0
    isplitl [H1]; · iexact H1
    iexact H2
  iexact Hg

/-- The class invariant (every scoped non-staging buffer at anything) in this shape. -/
theorem PhiA1_eq (c : Dev nD) :
    (Pipeline.ΦA spec1 c : sProp 𝕄)
      = PhiShape c iprop(∃ d, owns (c : Thread nD τ) scM1_0 fullShare d) iprop(∃ d, owns (c : Thread nD τ) scM1_1 fullShare d) iprop(∃ d, owns (c : Thread nD τ) scM1_2 fullShare d) := by
  unfold Pipeline.ΦA PhiShape; rw [scopedRest1_eq]; simp only [scM1_0, scM1_1, scM1_2, owns_whole]; try rfl

/-- Before the first point: the class invariant. After point n: the three scratch buffers at what that point left. -/
def PhiS (c : Dev nD) : (n : ℕ) → n ≤ cfg1.N → sProp 𝕄
  | 0, _ => Pipeline.ΦA spec1 c
  | n + 1, hn => PhiShape c (owns (c : Thread nD τ) scM1_0 fullShare (outsAt1 V c n hn).2.1)
      (owns (c : Thread nD τ) scM1_1 fullShare (outsAt1 V c n hn).2.2.1) (owns (c : Thread nD τ) scM1_2 fullShare (outsAt1 V c n hn).2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiShape c (owns (c : Thread nD τ) scM1_0 fullShare (outsAt1 V c n hn).2.1)
      (owns (c : Thread nD τ) scM1_1 fullShare (outsAt1 V c n hn).2.2.1) (owns (c : Thread nD τ) scM1_2 fullShare (outsAt1 V c n hn).2.2.2) := rfl

theorem PhiS_pos (c : Dev nD) (n : ℕ) (h : n ≤ cfg1.N) (hz : n ≠ 0) :
    PhiS V c n h = PhiShape c (owns (c : Thread nD τ) scM1_0 fullShare (outsAt1 V c (n - 1) (by omega)).2.1)
      (owns (c : Thread nD τ) scM1_1 fullShare (outsAt1 V c (n - 1) (by omega)).2.2.1) (owns (c : Thread nD τ) scM1_2 fullShare (outsAt1 V c (n - 1) (by omega)).2.2.2) := by
  cases n with
  | zero => exact absurd rfl hz
  | succ n => rfl

/-! ## The proof data of the attention region -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KIBody1.lean ====
/-
  The body obligation of the attention region: at every grid point the body, handed the key block, the whole query
  and value arrays, the output block's buffer and the three scratch buffers at what the step before left (at
  anything before the first point, and wherever a first step resets them), leaves the scratch buffers at this
  point's contents — by the position of the step within its row block (first, middle, last).
-/
import proofs.«138961_j39316130628151_2_alg».proof.Proof.KIFrame1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 64 := lt_of_lt_of_eq t.isLt (show cfg1.N = 64 from N_1)
  by_cases h0 : t.val % 8 = 0
  · -- the first step of a row block
    rw [Dat.leavesExact_idle (dat1 V c) 3 t (idleAt1_3 t (notLast_of_first t h0)) (noFlush1_3 t (notLast_of_first t h0))]
    rw [outsAt1_A V c t h0]
    unfold ptA; dsimp only
    unfold sout1_A_0 sout1_A_1 sout1_A_2
    by_cases hz : t.val = 0
    · rw [PhiS_castSucc V c t, PhiS_zero V c _ _ hz, PhiA1_eq]
      iintro ⟨HΦ, Ho, ⟨%d0, H0⟩, ⟨%d1, H1⟩, ⟨%d2, H2⟩, ⟨%d3, H3⟩⟩
      ihave HΦ' := (PhiShape_split c _ _ _) $$ HΦ
      icases HΦ' with ⟨HS0, HS1, HS2, Hoth⟩
      iapply ((kernelRun1_A c (grid1.coords t) _ _ _ _ _ _ _ _ _ _ _ _ _ _ ((hcond1_0 t).mpr h0) (notLast_of_first t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hoth]
      · iapply (PhiShape_join c _ _ _)
        isplitl [HS0]
        · unfold owns; iexists _; isplitr
          swap; · iexact HS0
          ipureintro; exact View.read_writes_of_cover _ _ _ _ _ (scover1_A_0 c _ _ _ _ _ _ _ _ _ _ _ _ _ _ _ _ _ _ _ _ )
        isplitl [HS1]
        · unfold owns; iexists _; isplitr
          swap; · iexact HS1
          ipureintro; exact View.read_writes_of_cover _ _ _ _ _ (scover1_A_1 c _ _ _ _ _ _ _ _ _ _ _ _ _ _ _ _ _ _ _ _ )
        isplitl [HS2]
        · unfold owns; iexists _; isplitr
          swap; · iexact HS2
          ipureintro; exact View.read_writes_of_cover _ _ _ _ _ (scover1_A_2 c _ _ _ _ _ _ _ _ _ _ _ _ _ _ _ _ _ _ _ _ )
        iexact Hoth
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨HΦ, Ho, ⟨%d0, H0⟩, ⟨%d1, H1⟩, ⟨%d2, H2⟩, ⟨%d3, H3⟩⟩
      ihave HΦ' := (PhiShape_split c _ _ _) $$ HΦ
      icases HΦ' with ⟨HS0, HS1, HS2, Hoth⟩
      iapply ((kernelRun1_A c (grid1.coords t) _ _ _ _ _ _ _ _ _ _ _ _ _ _ ((hcond1_0 t).mpr h0) (notLast_of_first t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hoth]
      · iapply (PhiShape_join c _ _ _)
        isplitl [HS0]
        · unfold owns; iexists _; isplitr
          swap; · iexact HS0
          ipureintro; exact View.read_writes_of_cover _ _ _ _ _ (scover1_A_0 c _ _ _ _ _ _ _ _ _ _ _ _ _ _ _ _ _ _ _ _ )
        isplitl [HS1]
        · unfold owns; iexists _; isplitr
          swap; · iexact HS1
          ipureintro; exact View.read_writes_of_cover _ _ _ _ _ (scover1_A_1 c _ _ _ _ _ _ _ _ _ _ _ _ _ _ _ _ _ _ _ _ )
        isplitl [HS2]
        · unfold owns; iexists _; isplitr
          swap; · iexact HS2
          ipureintro; exact View.read_writes_of_cover _ _ _ _ _ (scover1_A_2 c _ _ _ _ _ _ _ _ _ _ _ _ _ _ _ _ _ _ _ _ )
        iexact Hoth
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · -- the last step of a row block
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h1]
      unfold ptC; dsimp only
      unfold out1_C_3 sout1_C_0 sout1_C_1 sout1_C_2
      rw [PhiS_castSucc V c t, PhiS_pos V c _ _ hz]
      iintro ⟨HΦ, Ho, ⟨%d0, H0⟩, ⟨%d1, H1⟩, ⟨%d2, H2⟩, ⟨%d3, H3⟩⟩
      ihave HΦ' := (PhiShape_split c _ _ _) $$ HΦ
      icases HΦ' with ⟨HS0, HS1, HS2, Hoth⟩
      iapply ((kernelRun1_C c (grid1.coords t) _ _ _ _ _ _ _ _ _ _ _ _ _ _ (notFirst_of_last t h1) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hoth]
      · iapply (PhiShape_join c _ _ _)
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ )
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ )
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ )
        iexact Hoth
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _ )
    · -- a middle step
      rw [Dat.leavesExact_idle (dat1 V c) 3 t (idleAt1_3 t (fun h => h1 ((hcond1_1 t).mp h))) (noFlush1_3 t (fun h => h1 ((hcond1_1 t).mp h)))]
      rw [outsAt1_B V c t h0 h1]
      unfold ptB; dsimp only
      unfold sout1_B_0 sout1_B_1 sout1_B_2
      rw [PhiS_castSucc V c t, PhiS_pos V c _ _ hz]
      iintro ⟨HΦ, Ho, ⟨%d0, H0⟩, ⟨%d1, H1⟩, ⟨%d2, H2⟩, ⟨%d3, H3⟩⟩
      ihave HΦ' := (PhiShape_split c _ _ _) $$ HΦ
      icases HΦ' with ⟨HS0, HS1, HS2, Hoth⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hoth]
      · iapply (PhiShape_join c _ _ _)
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ )
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ )
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ )
        iexact Hoth
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro HΦ
  ihave HΦ' := (PhiShape_split c _ _ _) $$ HΦ
  icases HΦ' with ⟨HS0, HS1, HS2, Hoth⟩
  iapply (PhiShape_join c _ _ _)
  isplitl [HS0]; · iexists _; iexact HS0
  isplitl [HS1]; · iexists _; iexact HS1
  isplitl [HS2]; · iexists _; iexact HS2
  iexact Hoth

end Cert.KernelIdeal.Hand

end
-- ==== Proof.KIRun.lean ====
/-
  The whole run of the kernel program: the host stretch that rounds the three weight matrices, then the projection
  region, then the attention region.  The buffer contents at each boundary are a fold from the launch memory (a host
  stretch's results; a region's arrays at what its write-backs leave); every weakly fair execution terminates and
  every unscoped buffer ends at the last boundary's contents.  From it: the four argument arrays end as launched,
  and the result array holds what the attention region's write-backs leave.
-/
import proofs.«138961_j39316130628151_2_alg».proof.Proof.KIRegion0
import proofs.«138961_j39316130628151_2_alg».proof.Proof.KIBody1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)
/-- After the host stretch (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the attention region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No host operation and no region writes an argument -/

theorem W1_of_not_written (c : Dev nD) (b : Ref sig .tc) (h1 : b ≠ main_v0) (h2 : b ≠ main_v1) (h3 : b ≠ main_v2) :
    W1 m c (Proc.devRef .tc b) = W0 m c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h1, StableHlo.devRef_ne_of_ne h2, StableHlo.devRef_ne_of_ne h3⟩))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_not_written m c main_arg0 (by decide) (by decide) (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of_not_written m c main_arg1 (by decide) (by decide) (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of_not_written m c main_arg2 (by decide) (by decide) (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_not_written m c main_arg3 (by decide) (by decide) (by decide)
    _ = m ((c : Thread nD τ).loc main_arg3) := rfl

/-- The result array ends at what the attention region's write-backs leave. -/
theorem W3_main_v4 (c : Dev nD) : W3 m c (Proc.devRef .tc main_v4) = (dat1 (V2 m) c).arrAt 3 cfg1.N :=
  W3_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the core's pseudo-random number register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ (Pipeline.ucRefs τ sig) :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer of every core ends at the last boundary's contents. -/
theorem run_all (ρ : Dev nD → PrngReg) : θ_run defs (onTc (τ := τ) (main (F := F))) ⟨m, fun _ => 0, ρ⟩ (fun r => ∀ c : Dev nD,
      ∀ b ∈ (Pipeline.ucRefs τ sig), r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ (Pipeline.ucRefs τ sig), s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame claim's post at any F: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result array named: it ends at what the attention region's write-backs leave. -/
theorem run_value (ρ : Dev nD → PrngReg) : θ_run defs (onTc (τ := τ) (main (F := F))) ⟨m, fun _ => 0, ρ⟩ (fun r => ∀ c : Dev nD,
      r.2.mem ((c.tc : Thread nD τ).loc main_v4) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (W3_main_v4 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.KIPieces.lean ====
/-
  What the attention body leaves in its three scratch buffers (and, at a last step, in the output block), as the
  arithmetic of the step's loads.  A step reads the key block, the 512 query rows and the 512 value rows of its
  position in the row block, and the running maximum, normaliser and accumulator; it leaves the new running
  maximum, the new normaliser and the new accumulator, each one function of those values.  At the first step of a
  row block the three running quantities are first reset (to −∞, 0 and 0) and the step reads the reset values
  back; at the last step the new accumulator divided by the new normaliser is the output block.
-/
import proofs.«138961_j39316130628151_2_alg».proof.Proof.KIFrame1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer access. -/
theorem hz2 : (![0, 0] : Fin 2 → Nat) = fun _ => 0 := funext fun a => by fin_cases a <;> rfl

/-- The 512 query / value rows of a key/value step: rows 512·(i 1) … 512·(i 1) + 511 of a [4096,1024] array. -/
abbrev rQ (i : grid1.Coords) : Rect S4096x1024 := Rect.unit (s := S4096x1024) (k1_off1 i) S512x1024.size (k1_off1_inb i)

section Pieces
variable (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole)

/-! ## A middle step: each scratch buffer is overwritten once, from the step's loads

Here x0 is the key block, x1 and x2 the whole query and value arrays of which the step reads the rows rQ i, and
xs0, xs1, xs2 what the step before left as running maximum, normaliser and accumulator. -/

/-- The running maximum a middle step leaves: the larger of the old one and the block's row maxima. -/
theorem sout1_B_0_eq (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) :
    sout1_B_0 c i arg2 harg2 arg3 harg3 arg4 harg4 arg5 harg5 arg6 harg6 arg7 harg7 arg8 harg8 hc0 hc1 x0 x1 x2 xs0 xs1 xs2
      = k1_pay2 (k1_pay9 (View.ld x1 (rQ i)) x0 xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_run_names
  rw [View.canon_unit_zero hz2]
  simp only [View.readAt_eq_ld, harg2.read_unread, harg3.read_unread, harg4.read_unread, harg6.read_unread, harg7.read_unread, harg8.read_unread,
    View.ld_unit_zero (S := S512x1024) hz2, View.ld_unit_zero (S := S512x1) hz2]

/-- The running normaliser a middle step leaves. -/
theorem sout1_B_1_eq (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) :
    sout1_B_1 c i arg2 harg2 arg3 harg3 arg4 harg4 arg5 harg5 arg6 harg6 arg7 harg7 arg8 harg8 hc0 hc1 x0 x1 x2 xs0 xs1 xs2
      = k1_pay12 (View.ld x1 (rQ i)) x0 xs0 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_run_names
  rw [View.canon_unit_zero hz2]
  simp only [View.readAt_eq_ld, harg2.read_unread, harg3.read_unread, harg4.read_unread, harg6.read_unread, harg7.read_unread, harg8.read_unread,
    View.ld_unit_zero (S := S512x1024) hz2, View.ld_unit_zero (S := S512x1) hz2]

/-- The running accumulator a middle step leaves: the old one rescaled plus the block's weighted value rows. -/
theorem sout1_B_2_eq (hc0 : ¬cond1_0 i) (hc1 : ¬cond1_1 i) (x0 : Vec F S512x1024 .bf16) (x1 x2 : Vec F S4096x1024 .bf16) (xs0 : Vec F S512x1 .f32) (xs1 : Vec F S512x1 .f32) (xs2 : Vec F S512x1024 .f32) :
    sout1_B_2 c i arg2 harg2 arg3 harg3 arg4 harg4 arg5 harg5 arg6 harg6 arg7 harg7 arg8 harg8 hc0 hc1 x0 x1 x2 xs0 xs1 xs2
      = k1_pay1 (k1_pay7 (View.ld x2 (rQ i))) (k1_pay10 (View.ld x1 (rQ i)) x0 xs0 xs0) (k1_pay11 (View.ld x1 (rQ i)) x0 xs0) xs2 := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_run_names
  rw [View.canon_unit_zero hz2]
  simp only [View.readAt_eq_ld, harg2.read_unread, harg3.read_unread, harg4.read_unread, harg6.read_unread, harg7.read_unread, harg8.read_unread,
    View.ld_unit_zero (S := S512x1024) hz2, View.ld_unit_zero (S := S512x1) hz2]

/-! ## A last step: the scratch buffers as at a middle step, and the output block

The output block is the new accumulator divided, row by row, by the new normaliser: the step reads both back
from the stores it has just made. -/

/-- The running maximum a last step leaves. -/
theorem sout1_C_0_eq (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) :
    sout1_C_0 c i arg2 harg2 arg3 harg3 arg4 harg4 arg5 harg5 arg6 harg6 arg7 harg7 arg8 harg8 hc0 hc1 x0 x1 x2 xs0 xs1 xs2
      = k1_pay2 (k1_pay9 (View.ld x1 (rQ i)) x0 xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_run_names
  rw [View.canon_unit_zero hz2]
  simp only [View.readAt_eq_ld, harg2.read_unread, harg3.read_unread, harg4.read_unread, harg6.read_unread, harg7.read_unread, harg8.read_unread,
    View.ld_unit_zero (S := S512x1024) hz2, View.ld_unit_zero (S := S512x1) hz2]

/-- The running normaliser a last step leaves. -/
theorem sout1_C_1_eq (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) :
    sout1_C_1 c i arg2 harg2 arg3 harg3 arg4 harg4 arg5 harg5 arg6 harg6 arg7 harg7 arg8 harg8 hc0 hc1 x0 x1 x2 xs0 xs1 xs2
      = k1_pay12 (View.ld x1 (rQ i)) x0 xs0 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_run_names
  rw [View.canon_unit_zero hz2]
  simp only [View.readAt_eq_ld, harg2.read_unread, harg3.read_unread, harg4.read_unread, harg6.read_unread, harg7.read_unread, harg8.read_unread,
    View.ld_unit_zero (S := S512x1024) hz2, View.ld_unit_zero (S := S512x1) hz2]

/-- The running accumulator a last step leaves. -/
theorem sout1_C_2_eq (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) :
    sout1_C_2 c i arg2 harg2 arg3 harg3 arg4 harg4 arg5 harg5 arg6 harg6 arg7 harg7 arg8 harg8 hc0 hc1 x0 x1 x2 xs0 xs1 xs2
      = k1_pay1 (k1_pay7 (View.ld x2 (rQ i))) (k1_pay10 (View.ld x1 (rQ i)) x0 xs0 xs0) (k1_pay11 (View.ld x1 (rQ i)) x0 xs0) xs2 := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_run_names
  rw [View.canon_unit_zero hz2]
  simp only [View.readAt_eq_ld, harg2.read_unread, harg3.read_unread, harg4.read_unread, harg6.read_unread, harg7.read_unread, harg8.read_unread,
    View.ld_unit_zero (S := S512x1024) hz2, View.ld_unit_zero (S := S512x1) hz2]

/-- The output block a last step stores: the new accumulator over the new normaliser. -/
theorem out1_C_3_eq (hc0 : ¬cond1_0 i) (hc1 : cond1_1 i) (x0 : Vec F S512x1024 .bf16) (x1 x2 : Vec F S4096x1024 .bf16) (xs0 : Vec F S512x1 .f32) (xs1 : Vec F S512x1 .f32) (xs2 : Vec F S512x1024 .f32) :
    out1_C_3 c i arg2 harg2 arg3 harg3 arg4 harg4 arg5 harg5 arg6 harg6 arg7 harg7 arg8 harg8 hc0 hc1 x0 x1 x2 xs0 xs1 xs2
      = k1_pay3 (k1_pay1 (k1_pay7 (View.ld x2 (rQ i))) (k1_pay10 (View.ld x1 (rQ i)) x0 xs0 xs0) (k1_pay11 (View.ld x1 (rQ i)) x0 xs0) xs2)
          (k1_pay12 (View.ld x1 (rQ i)) x0 xs0 xs0 xs1) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_run_names
  rw [View.canon_unit_zero hz2,
    View.readCov_unit_zero (S := S512x1024) _ hz2, View.readCov_unit_zero (S := S512x1) _ hz2]
  simp only [View.readAt_eq_ld, harg2.read_unread, harg3.read_unread, harg4.read_unread, harg6.read_unread, harg7.read_unread, harg8.read_unread,
    View.ld_unit_zero (S := S512x1024) hz2, View.ld_unit_zero (S := S512x1) hz2]

/-! ## A first step: the running quantities are reset, then updated from the reset values

Each scratch buffer is stored twice, the reset first and the update last; the update's loads read the reset
values (−∞ for the maximum, 0 for the normaliser and the accumulator) back. -/

/-- The running maximum a first step leaves: the block's row maxima against −∞. -/
theorem sout1_A_0_eq (hc0 : cond1_0 i) (hc1 : ¬cond1_1 i) (x0 : Vec F S512x1024 .bf16) (x1 x2 : Vec F S4096x1024 .bf16) :
    sout1_A_0 c i arg2 harg2 arg3 harg3 arg4 harg4 arg5 harg5 arg6 harg6 arg7 harg7 arg8 harg8 hc0 hc1 x0 x1 x2
      = k1_pay2 (k1_pay9 (View.ld x1 (rQ i)) x0 (k1_pay4 (F := F))) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_run_names
  rw [View.canon_cons_unit_zero (S := S512x1) hz2]
  simp only [View.readCov_unit_zero (S := S512x1) _ hz2, View.readCov_unit_zero (S := S512x1024) _ hz2,
    View.readAt_eq_ld, harg2.read_unread, harg3.read_unread, harg4.read_unread, harg6.read_unread, harg7.read_unread, harg8.read_unread,
    View.ld_unit_zero (S := S512x1024) hz2, View.ld_unit_zero (S := S512x1) hz2]

/-- The running normaliser a first step leaves. -/
theorem sout1_A_1_eq (hc0 : cond1_0 i) (hc1 : ¬cond1_1 i) (x0 : Vec F S512x1024 .bf16) (x1 x2 : Vec F S4096x1024 .bf16) :
    sout1_A_1 c i arg2 harg2 arg3 harg3 arg4 harg4 arg5 harg5 arg6 harg6 arg7 harg7 arg8 harg8 hc0 hc1 x0 x1 x2
      = k1_pay12 (View.ld x1 (rQ i)) x0 (k1_pay4 (F := F)) (k1_pay4 (F := F)) (k1_pay5 (F := F)) := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_run_names
  rw [View.canon_cons_unit_zero (S := S512x1) hz2]
  simp only [View.readCov_unit_zero (S := S512x1) _ hz2, View.readCov_unit_zero (S := S512x1024) _ hz2,
    View.readAt_eq_ld, harg2.read_unread, harg3.read_unread, harg4.read_unread, harg6.read_unread, harg7.read_unread, harg8.read_unread,
    View.ld_unit_zero (S := S512x1024) hz2, View.ld_unit_zero (S := S512x1) hz2]

/-- The running accumulator a first step leaves. -/
theorem sout1_A_2_eq (hc0 : cond1_0 i) (hc1 : ¬cond1_1 i) (x0 : Vec F S512x1024 .bf16) (x1 x2 : Vec F S4096x1024 .bf16) :
    sout1_A_2 c i arg2 harg2 arg3 harg3 arg4 harg4 arg5 harg5 arg6 harg6 arg7 harg7 arg8 harg8 hc0 hc1 x0 x1 x2
      = k1_pay1 (k1_pay7 (View.ld x2 (rQ i))) (k1_pay10 (View.ld x1 (rQ i)) x0 (k1_pay4 (F := F)) (k1_pay4 (F := F))) (k1_pay11 (View.ld x1 (rQ i)) x0 (k1_pay4 (F := F))) (k1_pay6 (F := F)) := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_run_names
  rw [View.canon_cons_unit_zero (S := S512x1024) hz2]
  simp only [View.readCov_unit_zero (S := S512x1) _ hz2, View.readCov_unit_zero (S := S512x1024) _ hz2,
    View.readAt_eq_ld, harg2.read_unread, harg3.read_unread, harg4.read_unread, harg6.read_unread, harg7.read_unread, harg8.read_unread,
    View.ld_unit_zero (S := S512x1024) hz2, View.ld_unit_zero (S := S512x1) hz2]

end Pieces

end Cert.KernelIdeal.Hand

end
-- ==== Proof.KIBlocks1.lean ====
/-
  The attention region's blocks read at an index, and its result array from its blocks.

  The grid is 8 row blocks × 8 key/value steps; point t is step t % 8 of row block t / 8.  The key
  window's block at point t is rows 512·(t/8) … 512·(t/8) + 511 of the key array; the query and the
  value windows' one block is their whole array; inside the body a step loads, from the whole query
  and value buffers, the 512 rows from 512·(t % 8).  The result window's block at point t is rows
  512·(t/8) … + 511 of the result array and is written back at the last step of a row block only,
  so row r of the result comes from the point 8·(r/512) + 7: the eight written blocks tile the array.
-/
import proofs.«138961_j39316130628151_2_alg».proof.Proof.KIFrame1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The rows a point reads and writes -/

/-- Row p of the row block of point t: 512·(t/8) + p. -/
abbrev blockRow (t : Fin cfg1.N) (p : Fin 512) : Fin 4096 :=
  ⟨512 * (t.val / 8) + p.val, by have := t.isLt; have hN : cfg1.N = 64 := N_1; have := p.isLt; omega⟩

/-- Row j of the key/value step of point t: 512·(t % 8) + j. -/
abbrev stepRow (t : Fin cfg1.N) (j : Fin 512) : Fin 4096 :=
  ⟨512 * (t.val % 8) + j.val, by have := j.isLt; omega⟩

/-! ## The printed index maps and the load offset, decided once over the grid -/

/-- The key window moves with the row block. -/
theorem idx1_0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)
/-- The query window's one block is at the origin. -/
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
/-- The value window's one block is at the origin. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
/-- The result window moves with the row block. -/
theorem idx1_3 : ∀ t : Fin cfg1.N, win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0)
/-- The body's load offset: 512 rows per key/value step, no column offset. -/
theorem off1_facts : ∀ t : Fin cfg1.N, k1_off1 (grid1.coords t) (0 : Fin 2) = 512 * (t.val % 8) ∧ k1_off1 (grid1.coords t) (1 : Fin 2) = 0 :=
  (by decide +kernel : ∀ t : Fin grid1.N, k1_off1 (grid1.coords t) (0 : Fin 2) = 512 * (t.val % 8) ∧ k1_off1 (grid1.coords t) (1 : Fin 2) = 0)

/-! ## The input blocks at an index -/

/-- The key block of point t at (p, d) is the key array at row 512·(t/8) + p. -/
theorem kblk_apply (c : Dev nD) (t : Fin cfg1.N) (p : Fin 512) (d : Fin 1024) :
    iblk1 V c 0 t (ix2 p d) = V c (Pipeline.arrRef spec1 0) (ix2 (blockRow t p) d) := by
  obtain ⟨e0, e1⟩ := idx1_0 t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 512 + 1 * p.val = 512 * (t.val / 8) + p.val; rw [e0]; omega
  | ⟨1, _⟩ => show win1_0.index t (1 : Fin 2) * 1024 + 1 * d.val = d.val; rw [e1]; omega

/-- The query window's block is the whole query array. -/
theorem qarr_apply (c : Dev nD) (t : Fin cfg1.N) (i : Fin 4096) (d : Fin 1024) :
    iblk1 V c 1 t (ix2 i d) = V c (Pipeline.arrRef spec1 1) (ix2 i d) := by
  obtain ⟨e0, e1⟩ := idx1_1 t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 4096 + 1 * i.val = i.val; rw [e0]; omega
  | ⟨1, _⟩ => show win1_1.index t (1 : Fin 2) * 1024 + 1 * d.val = d.val; rw [e1]; omega

/-- The value window's block is the whole value array. -/
theorem varr_apply (c : Dev nD) (t : Fin cfg1.N) (i : Fin 4096) (d : Fin 1024) :
    iblk1 V c 2 t (ix2 i d) = V c (Pipeline.arrRef spec1 2) (ix2 i d) := by
  obtain ⟨e0, e1⟩ := idx1_2 t
  unfold iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 2) * 4096 + 1 * i.val = i.val; rw [e0]; omega
  | ⟨1, _⟩ => show win1_2.index t (1 : Fin 2) * 1024 + 1 * d.val = d.val; rw [e1]; omega

/-- The body's load of a step's 512 rows from a whole [4096, 1024] buffer, at (j, d): the buffer at
    row 512·(t % 8) + j. -/
theorem ld_step_apply (x : Vec F S4096x1024 .bf16) (t : Fin cfg1.N) (j : Fin 512) (d : Fin 1024) :
    View.ld x (Rect.unit (s := S4096x1024) (k1_off1 (grid1.coords t)) S512x1024.size (k1_off1_inb (grid1.coords t))) (ix2 j d)
      = x (ix2 (stepRow t j) d) := by
  obtain ⟨e0, e1⟩ := off1_facts t
  show x _ = x _
  refine congrArg x (funext fun a => Fin.ext ?_)
  match a with
  | ⟨0, _⟩ => show k1_off1 (grid1.coords t) (0 : Fin 2) + 1 * j.val = 512 * (t.val % 8) + j.val; rw [e0]; omega
  | ⟨1, _⟩ => show k1_off1 (grid1.coords t) (1 : Fin 2) + 1 * d.val = d.val; rw [e1]; omega

/-! ## The result array from its blocks -/

/-- An index of the result array is in point t's block iff each coordinate is in the block's range. -/
theorem mem_blk1_3 (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v4).slice (win1_3.rect t)).set ↔ _
  rw [View.set_slice_whole, Rect.mem_set_unit]
  exact Iff.rfl

/-- Point t's block of a function Gf of the result array's index, at (p, d): Gf at row 512·(t/8) + p. -/
theorem read_blk1_3_apply (Gf : S4096x1024.Idx → Elt F .f32) (t : Fin cfg1.N) (p : Fin 512) (d : Fin 1024) :
    ((cfg1.win 3).blk t).view.read (Elt F) Gf (ix2 p d) = Gf (ix2 (blockRow t p) d) := by
  obtain ⟨e0, e1⟩ := idx1_3 t
  rw [View.read_apply]
  show Gf _ = Gf _
  refine congrArg Gf (funext fun a => Fin.ext ?_)
  match a with
  | ⟨0, _⟩ => show win1_3.index t (0 : Fin 2) * 512 + 1 * p.val = 512 * (t.val / 8) + p.val; rw [e0]; omega
  | ⟨1, _⟩ => show win1_3.index t (1 : Fin 2) * 1024 + 1 * d.val = d.val; rw [e1]; omega

/-- What a last step writes back is its block of Gf, when what it left in the output buffer is. -/
theorem flushed1_3_eq (c : Dev nD) (Gf : S4096x1024.Idx → Elt F .f32)
    (hG : ∀ (t : Fin cfg1.N), t.val % 8 = 7 → ∀ (p : Fin 512) (d : Fin 1024),
      (outsAt1 V c t.val t.isLt).1 (ix2 p d) = Gf (ix2 (blockRow t p) d))
    (t : Fin cfg1.N) (h7 : t.val % 8 = 7) :
    (dat1 V c).flushed 3 t = ((cfg1.win 3).blk t).view.read (Elt F) Gf := by
  show (cfg1.win 3).cut (grid1.coords t) ((dat1 V c).after 3 t) = _
  rw [after1_3]
  funext j
  obtain ⟨p, d, rfl⟩ : ∃ (p : Fin 512) (d : Fin 1024), j = ix2 p d := ⟨j 0, j 1, eq_ix2 j⟩
  refine Eq.trans ?_ ((hG t h7 p d).trans (read_blk1_3_apply Gf t p d).symm)
  show (outsAt1 V c t.val t.isLt).1 _ = (outsAt1 V c t.val t.isLt).1 _
  exact congrArg (outsAt1 V c t.val t.isLt).1 (funext fun a => Fin.ext (by match a with | ⟨0, _⟩ => rfl | ⟨1, _⟩ => rfl))

/-- Every row of the result array is in the block of the last step of its row block. -/
theorem cover1_3 (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 64 := N_1
  have ht : 8 * ((i 0).val / 512) + 7 < cfg1.N := by omega
  refine ⟨⟨8 * ((i 0).val / 512) + 7, ht⟩, (flush1_3 _).mpr (by show (8 * ((i 0).val / 512) + 7) % 8 = 7; omega), ?_⟩
  rw [mem_blk1_3]
  obtain ⟨e0, e1⟩ := idx1_3 ⟨8 * ((i 0).val / 512) + 7, ht⟩
  have e0' : win1_3.index ⟨8 * ((i 0).val / 512) + 7, ht⟩ (0 : Fin 2) = (i 0).val / 512 := by rw [e0]; show (8 * ((i 0).val / 512) + 7) / 8 = _; omega
  intro a
  match a with
  | ⟨0, _⟩ =>
    show win1_3.index ⟨8 * ((i 0).val / 512) + 7, ht⟩ (0 : Fin 2) * 512 ≤ (i 0).val ∧ (i 0).val < win1_3.index ⟨8 * ((i 0).val / 512) + 7, ht⟩ (0 : Fin 2) * 512 + 512
    rw [e0']; omega
  | ⟨1, _⟩ =>
    show win1_3.index ⟨8 * ((i 0).val / 512) + 7, ht⟩ (1 : Fin 2) * 1024 ≤ (i 1).val ∧ (i 1).val < win1_3.index ⟨8 * ((i 0).val / 512) + 7, ht⟩ (1 : Fin 2) * 1024 + 1024
    rw [e1]; omega

/-- The result array after the region: Gf, when at every last step the output buffer holds its block of Gf. -/
theorem final1_3 (c : Dev nD) (Gf : S4096x1024.Idx → Elt F .f32)
    (hG : ∀ (t : Fin cfg1.N), t.val % 8 = 7 → ∀ (p : Fin 512) (d : Fin 1024),
      (outsAt1 V c t.val t.isLt).1 (ix2 p d) = Gf (ix2 (blockRow t p) d)) :
    (dat1 V c).arrAt 3 cfg1.N = Gf :=
  (dat1 V c).arrAt_eq_of_cover 3 Gf (fun t hfl => flushed1_3_eq V c Gf hG t ((flush1_3 t).mp hfl)) cover1_3

end Cert.KernelIdeal.Hand

end
-- ==== Proof.PayloadsIdeal.lean ====
/-
  The kernel's payloads read at an index, at the extended reals.

  Each payload of the two kernel functions is a pure term over the values loaded before it. Read at
  one index (p, d), the projection kernel's payload is a sum of 1024 products (its roundings are the
  identity on extended reals and its accumulator is the zero splat); the attention kernel's payloads
  are the scaled scores of a key block against a query block, their running row maximum, the
  exponentials shifted by it, the running normaliser and the rescaled accumulator plus the weighted
  rows of the value block.
-/
import proofs.«138961_j39316130628151_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## A product of a [512,1024] block with a [1024,1024] matrix, at an index

The dot's dimension numbers contract the left operand's axis 1 with the right operand's axis 0; the
left index at result index (p, d) and contraction position k is (p, k), the right one (k, d). -/

/-- The dimension numbers of the projection's product. -/
abbrev DP : DotDims S512x1024 S1024x1024 S512x1024 := dot_S512x1024_S1024x1024_S512x1024_1_0_0_1_n_n

theorem lhsP_0 (i : S512x1024.Idx) (q : DP.contr.Idx) : (DP.lhsIdx i q 0).val = (i 0).val := by
  unfold DotDims.lhsIdx
  rw [dif_neg (show ¬(0 : Fin S512x1024.rank) ∈ DP.lhsBatch by decide),
    dif_pos (show (0 : Fin S512x1024.rank) ∈ DP.lhsNonContracting by decide)]
  rfl
theorem lhsP_1 (i : S512x1024.Idx) (q : DP.contr.Idx) : (DP.lhsIdx i q 1).val = (q ⟨0, by decide⟩).val :=
  DP.lhsIdx_val_of_single rfl i q
theorem rhsP_0 (i : S512x1024.Idx) (q : DP.contr.Idx) : (DP.rhsIdx i q 0).val = (q ⟨0, by decide⟩).val :=
  DP.rhsIdx_val_of_single rfl i q
theorem rhsP_1 (i : S512x1024.Idx) (q : DP.contr.Idx) : (DP.rhsIdx i q 1).val = (i 1).val := by
  unfold DotDims.rhsIdx
  rw [dif_neg (show ¬(1 : Fin S1024x1024.rank) ∈ DP.rhsBatch by decide),
    dif_pos (show (1 : Fin S1024x1024.rank) ∈ DP.rhsNonContracting by decide)]
  rfl

/-- The product into the zero accumulator, at (p, d): the sum over the 1024 contracted positions. -/
theorem matmulP_apply (a : FVec Ideal S512x1024 .bf16) (b : FVec Ideal S1024x1024 .bf16) (p : Fin 512) (d : Fin 1024) :
    matmul DP none a b (constant (F := Ideal) S512x1024 .f32 0x00000000#32) (ix2 p d)
      = ∑ k : Fin 1024, a (ix2 p k) * b (ix2 k d) := by
  simp only [matmul]
  rw [Ideal.matmul_constant_zero_apply, ← Equiv.sum_comp (contrEquiv1 DP 1024 rfl rfl).symm]
  refine Finset.sum_congr rfl fun k _ => ?_
  have hk := contrEquiv1_symm_val DP 1024 rfl rfl k
  have el : DP.lhsIdx (ix2 p d) ((contrEquiv1 DP 1024 rfl rfl).symm k) = ix2 p k := funext fun c => Fin.ext (by
    match c with
    | ⟨0, _⟩ => exact lhsP_0 _ _
    | ⟨1, _⟩ => exact (lhsP_1 _ _).trans hk)
  have er : DP.rhsIdx (ix2 p d) ((contrEquiv1 DP 1024 rfl rfl).symm k) = ix2 k d := funext fun c => Fin.ext (by
    match c with
    | ⟨0, _⟩ => exact (rhsP_0 _ _).trans hk
    | ⟨1, _⟩ => exact rhsP_1 _ _)
  rw [el, er]

/-- The rounded input block is the input block (a narrowing format change is the identity). -/
theorem k0_pay1_apply (x : Vec Ideal S512x1024 .f32) (i : S512x1024.Idx) : k0_pay1 x i = x i := rfl

/-- The query projection's payload at (p, d): the sum over the 1024 input features. -/
theorem pay2_apply (x : Vec Ideal S512x1024 .f32) (w : Vec Ideal S1024x1024 .bf16) (p : Fin 512) (d : Fin 1024) :
    k0_pay2 x w (ix2 p d) = ∑ k : Fin 1024, x (ix2 p k) * w (ix2 k d) := by
  unfold k0_pay2
  rw [shapeCast_self]
  exact matmulP_apply (k0_pay1 x) w p d

/-- The key projection's payload at (p, d). -/
theorem k0_pay3_apply (x : Vec Ideal S512x1024 .f32) (w : Vec Ideal S1024x1024 .bf16) (p : Fin 512) (d : Fin 1024) :
    k0_pay3 x w (ix2 p d) = ∑ k : Fin 1024, x (ix2 p k) * w (ix2 k d) := by
  unfold k0_pay3
  rw [shapeCast_self]
  exact matmulP_apply (k0_pay1 x) w p d

/-- The value projection's payload at (p, d). -/
theorem k0_pay4_apply (x : Vec Ideal S512x1024 .f32) (w : Vec Ideal S1024x1024 .bf16) (p : Fin 512) (d : Fin 1024) :
    k0_pay4 x w (ix2 p d) = ∑ k : Fin 1024, x (ix2 p k) * w (ix2 k d) := by
  unfold k0_pay4
  rw [shapeCast_self]
  exact matmulP_apply (k0_pay1 x) w p d

/-! ## A [512,1] column broadcast along the rows, and a [512] vector cast to a column -/

/-- A [512,1] column broadcast to [512,n] reads, at (p, c), the column at p. -/
theorem broadcastTo_col_apply {n : ℕ} {α : Type} (v : (⟨2, ![512, 1]⟩ : Shape).Idx → α)
    (h : (⟨2, ![512, 1]⟩ : Shape).Broadcasts ⟨2, ![512, n]⟩) (p : Fin 512) (c : Fin n) :
    broadcastTo ⟨2, ![512, n]⟩ v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- A [512] vector cast to a [512,1] column reads, at (p, 0), the vector at p. -/
theorem shapeCast_col_apply {α : Type} (v : (⟨1, ![512]⟩ : Shape).Idx → α)
    (h : (⟨1, ![512]⟩ : Shape).ShapeCasts ⟨2, ![512, 1]⟩) (p : Fin 512) (z : Fin 1) :
    shapeCast ⟨2, ![512, 1]⟩ v h (ix2 p z) = v (ix1 p) :=
  shapeCast_apply v h _ _ (by
    have hz : z.val = 0 := by omega
    rw [Shape.rowMajor_val_two, Shape.rowMajor_val_one]
    show p.val = p.val * 1 + z.val
    rw [hz, Nat.mul_one, Nat.add_zero])

/-! ## The score product: a key block [512,1024] against a transposed query block [1024,512] -/

/-- The dimension numbers of the score product. -/
abbrev DS : DotDims S512x1024 S1024x512 S512x512 := dot_S512x1024_S1024x512_S512x512_1_0_0_1_n_n

theorem lhsS_0 (i : S512x512.Idx) (q : DS.contr.Idx) : (DS.lhsIdx i q 0).val = (i 0).val := by
  unfold DotDims.lhsIdx
  rw [dif_neg (show ¬(0 : Fin S512x1024.rank) ∈ DS.lhsBatch by decide),
    dif_pos (show (0 : Fin S512x1024.rank) ∈ DS.lhsNonContracting by decide)]
  rfl
theorem lhsS_1 (i : S512x512.Idx) (q : DS.contr.Idx) : (DS.lhsIdx i q 1).val = (q ⟨0, by decide⟩).val :=
  DS.lhsIdx_val_of_single rfl i q
theorem rhsS_0 (i : S512x512.Idx) (q : DS.contr.Idx) : (DS.rhsIdx i q 0).val = (q ⟨0, by decide⟩).val :=
  DS.rhsIdx_val_of_single rfl i q
theorem rhsS_1 (i : S512x512.Idx) (q : DS.contr.Idx) : (DS.rhsIdx i q 1).val = (i 1).val := by
  unfold DotDims.rhsIdx
  rw [dif_neg (show ¬(1 : Fin S1024x512.rank) ∈ DS.rhsBatch by decide),
    dif_pos (show (1 : Fin S1024x512.rank) ∈ DS.rhsNonContracting by decide)]
  rfl

/-- The score product into the zero accumulator, at (p, j): the sum over the 1024 features. -/
theorem matmulS_apply (a : FVec Ideal S512x1024 .bf16) (b : FVec Ideal S1024x512 .bf16) (p j : Fin 512) :
    matmul DS none a b (constant (F := Ideal) S512x512 .f32 0x00000000#32) (ix2 p j)
      = ∑ d : Fin 1024, a (ix2 p d) * b (ix2 d j) := by
  simp only [matmul]
  rw [Ideal.matmul_constant_zero_apply, ← Equiv.sum_comp (contrEquiv1 DS 1024 rfl rfl).symm]
  refine Finset.sum_congr rfl fun k _ => ?_
  have hk := contrEquiv1_symm_val DS 1024 rfl rfl k
  have el : DS.lhsIdx (ix2 p j) ((contrEquiv1 DS 1024 rfl rfl).symm k) = ix2 p k := funext fun c => Fin.ext (by
    match c with
    | ⟨0, _⟩ => exact lhsS_0 _ _
    | ⟨1, _⟩ => exact (lhsS_1 _ _).trans hk)
  have er : DS.rhsIdx (ix2 p j) ((contrEquiv1 DS 1024 rfl rfl).symm k) = ix2 k j := funext fun c => Fin.ext (by
    match c with
    | ⟨0, _⟩ => exact (rhsS_0 _ _).trans hk
    | ⟨1, _⟩ => exact rhsS_1 _ _)
  rw [el, er]

/-- The scaled score of key row p against query row j: the product of the two rows over the 1024
    features, times the scale constant. -/
theorem pay8_apply (qb kb : Vec Ideal S512x1024 .bf16) (p j : Fin 512) :
    k1_pay8 qb kb (ix2 p j)
      = (∑ d : Fin 1024, kb (ix2 p d) * qb (ix2 j d)) * Ideal.ofBits .f32 0x3D000000#32 := by
  unfold k1_pay8
  rw [shapeCast_self, shapeCast_self]
  refine congrArg (· * Ideal.ofBits .f32 0x3D000000#32) ?_
  refine (matmulS_apply kb _ p j).trans ?_
  refine Finset.sum_congr rfl fun d _ => ?_
  rw [transpose_ix2_apply]

/-! ## The weighted rows of the value block: [512,512] weights against a [512,1024] block -/

/-- The dimension numbers of the weights-times-values product. -/
abbrev DV : DotDims S512x512 S512x1024 S512x1024 := dot_S512x512_S512x1024_S512x1024_1_0_0_1_n_n

theorem lhsV_0 (i : S512x1024.Idx) (q : DV.contr.Idx) : (DV.lhsIdx i q 0).val = (i 0).val := by
  unfold DotDims.lhsIdx
  rw [dif_neg (show ¬(0 : Fin S512x512.rank) ∈ DV.lhsBatch by decide),
    dif_pos (show (0 : Fin S512x512.rank) ∈ DV.lhsNonContracting by decide)]
  rfl
theorem lhsV_1 (i : S512x1024.Idx) (q : DV.contr.Idx) : (DV.lhsIdx i q 1).val = (q ⟨0, by decide⟩).val :=
  DV.lhsIdx_val_of_single rfl i q
theorem rhsV_0 (i : S512x1024.Idx) (q : DV.contr.Idx) : (DV.rhsIdx i q 0).val = (q ⟨0, by decide⟩).val :=
  DV.rhsIdx_val_of_single rfl i q
theorem rhsV_1 (i : S512x1024.Idx) (q : DV.contr.Idx) : (DV.rhsIdx i q 1).val = (i 1).val := by
  unfold DotDims.rhsIdx
  rw [dif_neg (show ¬(1 : Fin S512x1024.rank) ∈ DV.rhsBatch by decide),
    dif_pos (show (1 : Fin S512x1024.rank) ∈ DV.rhsNonContracting by decide)]
  rfl

/-- The weights-times-values product into the zero accumulator, at (p, d): the sum over the 512 rows. -/
theorem matmulV_apply (a : FVec Ideal S512x512 .bf16) (b : FVec Ideal S512x1024 .bf16) (p : Fin 512) (d : Fin 1024) :
    matmul DV none a b (constant (F := Ideal) S512x1024 .f32 0x00000000#32) (ix2 p d)
      = ∑ j : Fin 512, a (ix2 p j) * b (ix2 j d) := by
  simp only [matmul]
  rw [Ideal.matmul_constant_zero_apply, ← Equiv.sum_comp (contrEquiv1 DV 512 rfl rfl).symm]
  refine Finset.sum_congr rfl fun k _ => ?_
  have hk := contrEquiv1_symm_val DV 512 rfl rfl k
  have el : DV.lhsIdx (ix2 p d) ((contrEquiv1 DV 512 rfl rfl).symm k) = ix2 p k := funext fun c => Fin.ext (by
    match c with
    | ⟨0, _⟩ => exact lhsV_0 _ _
    | ⟨1, _⟩ => exact (lhsV_1 _ _).trans hk)
  have er : DV.rhsIdx (ix2 p d) ((contrEquiv1 DV 512 rfl rfl).symm k) = ix2 k d := funext fun c => Fin.ext (by
    match c with
    | ⟨0, _⟩ => exact (rhsV_0 _ _).trans hk
    | ⟨1, _⟩ => exact rhsV_1 _ _)
  rw [el, er]

/-- The accumulator's update at (p, d): the old entry rescaled by row p's factor, plus the weights of
    row p against column d of the value block. -/
theorem pay1_apply (v10 : FVec Ideal S512x1024 .bf16) (a : FVec Ideal S512x1 .f32) (pe : FVec Ideal S512x512 .f32)
    (acc : Vec Ideal S512x1024 .f32) (p : Fin 512) (d : Fin 1024) :
    k1_pay1 v10 a pe acc (ix2 p d)
      = a (ix2 p 0) * acc (ix2 p d) + ∑ j : Fin 512, pe (ix2 p j) * v10 (ix2 j d) := by
  unfold k1_pay1
  rw [shapeCast_self]
  show broadcastTo S512x1024 a broadcasts_S512x1_S512x1024 (ix2 p d) * acc (ix2 p d) + _ = _
  rw [broadcastTo_col_apply]
  refine congrArg (a (ix2 p 0) * acc (ix2 p d) + ·) ?_
  exact matmulV_apply _ v10 p d

/-! ## The reductions over the 512 columns of a [512,512] block -/

/-- The index a reduction over axis 1 inserts column k into row p at is (p, k). -/
theorem lift_row (p k : Fin 512) : reduces_S512x512_S512.lift (ix1 p) k = ix2 p k := by
  funext c
  match c with
  | ⟨0, _⟩ => rfl
  | ⟨1, _⟩ => rfl

/-- A row maximum of a [512,512] block from the accumulator word −∞, at row p: the fold of max over
    the 512 columns. -/
theorem rowMax_apply (src : FVec Ideal S512x512 .f32) (hφ : FKind.Formats .f32)
    (hacc : (0xFF800000#32 : BitVec 32) = FKind.maximumf.neutral .f32 hφ) (p : Fin 512) :
    multiReduction .maximumf [1] S512 src 0xFF800000#32 reduces_S512x512_S512 hφ hacc (ix1 p)
      = (Finset.univ : Finset (Fin 512)).fold max (Ideal.ofBits .f32 0xFF800000#32) (fun j => src (ix2 p j)) := by
  refine (Ideal.multiReduction_maximumf_single src 0xFF800000#32 reduces_S512x512_S512 hφ hacc (ix1 p)).trans ?_
  refine congrArg (Finset.fold max (Ideal.ofBits .f32 0xFF800000#32) · (Finset.univ : Finset (Fin 512))) ?_
  funext k
  exact congrArg src (lift_row p k)

/-- A row sum of a [512,512] block from the accumulator word 0, at row p: the sum over the 512 columns. -/
theorem rowSum_apply (src : FVec Ideal S512x512 .f32) (hφ : FKind.Formats .f32)
    (hacc : (0x00000000#32 : BitVec 32) = FKind.add.neutral .f32 hφ) (p : Fin 512) :
    multiReduction .add [1] S512 src 0x00000000#32 reduces_S512x512_S512 hφ hacc (ix1 p)
      = ∑ j : Fin 512, src (ix2 p j) := by
  refine (Ideal.multiReduction_add_single src 0x00000000#32 reduces_S512x512_S512 hφ hacc (ix1 p)).trans ?_
  refine Finset.sum_congr rfl fun k _ => ?_
  exact congrArg src (lift_row p k)

/-- The running row maximum at row p: the larger of the old maximum and the block's largest score in
    that row. -/
theorem pay9_apply (qb kb : Vec Ideal S512x1024 .bf16) (mOld : Vec Ideal S512x1 .f32) (p : Fin 512) :
    k1_pay9 qb kb mOld (ix2 p 0)
      = max (mOld (ix2 p 0))
          ((Finset.univ : Finset (Fin 512)).fold max (Ideal.ofBits .f32 0xFF800000#32)
            (fun j => k1_pay8 qb kb (ix2 p j))) := by
  unfold k1_pay9
  refine congrArg (max (mOld (ix2 p 0)) ·) ?_
  refine (shapeCast_col_apply _ _ p 0).trans ?_
  exact rowMax_apply (k1_pay8 qb kb) _ _ p

/-- The rescaling factor of row p: the exponential of the old maximum less the new one. -/
theorem pay10_apply (qb kb : Vec Ideal S512x1024 .bf16) (m17 m21 : Vec Ideal S512x1 .f32) (p : Fin 512) :
    k1_pay10 qb kb m17 m21 (ix2 p 0) = Ideal.exp (m21 (ix2 p 0) - k1_pay9 qb kb m17 (ix2 p 0)) := rfl

/-- The shifted exponential of the score at (p, j): the score less row p's new maximum. -/
theorem pay11_apply (qb kb : Vec Ideal S512x1024 .bf16) (m : Vec Ideal S512x1 .f32) (p j : Fin 512) :
    k1_pay11 qb kb m (ix2 p j) = Ideal.exp (k1_pay8 qb kb (ix2 p j) - k1_pay9 qb kb m (ix2 p 0)) := by
  unfold k1_pay11
  show Ideal.exp (k1_pay8 qb kb (ix2 p j)
    - broadcastTo S512x512 (k1_pay9 qb kb m) broadcasts_S512x1_S512x512 (ix2 p j)) = _
  rw [broadcastTo_col_apply]

/-- The running normaliser of row p: the old one rescaled, plus the block's shifted exponentials in
    that row. -/
theorem pay12_apply (qb kb : Vec Ideal S512x1024 .bf16) (m17 m21 l27 : Vec Ideal S512x1 .f32) (p : Fin 512) :
    k1_pay12 qb kb m17 m21 l27 (ix2 p 0)
      = k1_pay10 qb kb m17 m21 (ix2 p 0) * l27 (ix2 p 0) + ∑ j : Fin 512, k1_pay11 qb kb m17 (ix2 p j) := by
  unfold k1_pay12
  rw [shapeCast_self]
  refine congrArg (k1_pay10 qb kb m17 m21 (ix2 p 0) * l27 (ix2 p 0) + ·) ?_
  refine (shapeCast_col_apply _ _ p 0).trans ?_
  exact rowSum_apply (k1_pay11 qb kb m17) _ _ p

/-! ## The pointwise payloads -/

/-- The result at (p, d): the accumulator's entry divided by row p's normaliser. -/
theorem pay3_apply (acc : Vec Ideal S512x1024 .f32) (l : Vec Ideal S512x1 .f32) (p : Fin 512) (d : Fin 1024) :
    k1_pay3 acc l (ix2 p d) = Ideal.div (acc (ix2 p d)) (l (ix2 p 0)) := by
  unfold k1_pay3
  show Ideal.div (acc (ix2 p d)) (broadcastTo S512x1024 l broadcasts_S512x1_S512x1024 (ix2 p d)) = _
  rw [broadcastTo_col_apply]

/-- A cast to the same shape is the identity: the value block. -/
theorem pay7_eq (v : Vec Ideal S512x1024 .bf16) : k1_pay7 v = v := shapeCast_self v _

/-- A cast to the same shape is the identity: the stored row maximum. -/
theorem pay2'_eq (m : FVec Ideal S512x1 .f32) : k1_pay2 m = m := shapeCast_self m _

/-- The initial row maximum is −∞ everywhere. -/
theorem pay4_apply (i : S512x1.Idx) : k1_pay4 (F := Ideal) i = Ideal.ofBits .f32 0xFF800000#32 := by
  unfold k1_pay4
  rw [shapeCast_self]
  rfl

/-- The initial normaliser is 0 everywhere. -/
theorem pay5_apply (i : S512x1.Idx) : k1_pay5 (F := Ideal) i = 0 := by
  unfold k1_pay5
  rw [shapeCast_self]
  exact Ideal.ofBits_zero_f32

/-- The initial accumulator is 0 everywhere. -/
theorem pay6_apply (i : S512x1024.Idx) : k1_pay6 (F := Ideal) i = 0 := by
  unfold k1_pay6
  rw [shapeCast_self]
  exact Ideal.ofBits_zero_f32

end Cert.KernelIdeal.Pay

end
-- ==== Proof.KIValue0.lean ====
/-
  The values the projection region leaves.

  The region's grid has 8 points; point t loads rows 512t … 512t+511 of the x array and the whole of each
  of the three [1024,1024] matrices, and stores rows 512t … 512t+511 of each of the three outputs. Each
  stored block is the x block times a matrix; read at an entry, that is the sum over the 1024 contracted
  positions of products of entries of the arrays the region was entered with. The 8 row blocks tile each
  output array, so after the region each output array is, entry by entry, the product of the x array with
  its matrix.
-/
import proofs.«138961_j39316130628151_2_alg».proof.Proof.KIRegion0
import proofs.«138961_j39316130628151_2_alg».proof.Proof.PayloadsIdeal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The product of a [4096,1024] array with a [1024,1024] matrix, entry by entry:
    entry (r, d) is the sum over the 1024 positions k of x(r, k) · w(k, d). -/
abbrev projOf (x : S4096x1024.Idx → EReal) (w : S1024x1024.Idx → EReal) : S4096x1024.Idx → EReal :=
  fun idx => ∑ k : Fin 1024, x (ix2 (idx 0 : Fin 4096) k) * w (ix2 k (idx 1 : Fin 1024))

/-! ## One entry of an output block

A payload of the region at (p, d), over blocks that read row p of the x block where the array has row
i 0 and column d of the matrix block where the matrix has column i 1, is entry i of the product. -/

theorem k0_pay2_at (x0 : Vec Ideal S512x1024 .f32) (x1 : Vec Ideal S1024x1024 .bf16)
    (X : S4096x1024.Idx → EReal) (W : S1024x1024.Idx → EReal) (i : S4096x1024.Idx) (p : Fin 512) (d : Fin 1024)
    (hx : ∀ k : Fin 1024, x0 (ix2 p k) = X (ix2 (i 0 : Fin 4096) k))
    (hw : ∀ k : Fin 1024, x1 (ix2 k d) = W (ix2 k (i 1 : Fin 1024))) :
    k0_pay2 x0 x1 (ix2 p d) = projOf X W i := by
  rw [Pay.pay2_apply]
  exact Finset.sum_congr rfl fun k _ => by rw [hx k, hw k]

theorem k0_pay3_at (x0 : Vec Ideal S512x1024 .f32) (x1 : Vec Ideal S1024x1024 .bf16)
    (X : S4096x1024.Idx → EReal) (W : S1024x1024.Idx → EReal) (i : S4096x1024.Idx) (p : Fin 512) (d : Fin 1024)
    (hx : ∀ k : Fin 1024, x0 (ix2 p k) = X (ix2 (i 0 : Fin 4096) k))
    (hw : ∀ k : Fin 1024, x1 (ix2 k d) = W (ix2 k (i 1 : Fin 1024))) :
    k0_pay3 x0 x1 (ix2 p d) = projOf X W i := by
  rw [Pay.k0_pay3_apply]
  exact Finset.sum_congr rfl fun k _ => by rw [hx k, hw k]

theorem k0_pay4_at (x0 : Vec Ideal S512x1024 .f32) (x1 : Vec Ideal S1024x1024 .bf16)
    (X : S4096x1024.Idx → EReal) (W : S1024x1024.Idx → EReal) (i : S4096x1024.Idx) (p : Fin 512) (d : Fin 1024)
    (hx : ∀ k : Fin 1024, x0 (ix2 p k) = X (ix2 (i 0 : Fin 4096) k))
    (hw : ∀ k : Fin 1024, x1 (ix2 k d) = W (ix2 k (i 1 : Fin 1024))) :
    k0_pay4 x0 x1 (ix2 p d) = projOf X W i := by
  rw [Pay.k0_pay4_apply]
  exact Finset.sum_congr rfl fun k _ => by rw [hx k, hw k]

/-! ## The index maps over the grid

The x window and the three output windows move down the rows with the point (block index (t, 0)); the
three matrix windows stay at block (0, 0). -/

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## Output window 4: the query projection -/

/-- What point t writes back to output window 4 is block t of the product of the x array with window 1's matrix:
    the output block is rows 512t … 512t+511, the x block the same rows, the matrix block the whole matrix. -/
theorem flushed0_4_eq (c : Dev nD) (t : Fin cfg0.N) :
    (dat0 V c).flushed 4 t = ((cfg0.win 4).blk t).view.read (Elt Ideal)
      (projOf (V c (Pipeline.arrRef spec0 0)) (V c (Pipeline.arrRef spec0 1))) := by
  show (cfg0.win 4).cut (grid0.coords t) ((dat0 V c).after 4 t) = _
  rw [after0_4]
  unfold out0_4
  rw [View.canon_unit_zero hz0]
  simp only [View.ld_unit_zero (S := S512x1024) hz0, View.ld_unit_zero (S := S1024x1024) hz0]
  funext j
  obtain ⟨e00, e01, e10, e11, e20, e21, e30, e31, e40, e41, e50, e51, e60, e61⟩ := idx_facts0 t
  have hj : (win0 4).xinj (grid0.coords t) j
      = ix2 (⟨(j 0).val, (j 0).isLt⟩ : Fin 512) (⟨(j 1).val, (j 1).isLt⟩ : Fin 1024) :=
    funext fun a => by match a with | ⟨0, _⟩ => rfl | ⟨1, _⟩ => rfl
  show k0_pay2 (iblk0 V c 0 t) (iblk0 V c 1 t) ((win0 4).xinj (grid0.coords t) j)
    = projOf (V c (Pipeline.arrRef spec0 0)) (V c (Pipeline.arrRef spec0 1)) (((cfg0.win 4).blk t).view.emb j)
  refine (congrArg (k0_pay2 (iblk0 V c 0 t) (iblk0 V c 1 t)) hj).trans ?_
  refine k0_pay2_at _ _ _ _ _ _ _ (fun k => ?_) (fun k => ?_)
  · show V c (Pipeline.arrRef spec0 0) (((cfg0.win 0).blk t).view.emb (ix2 (⟨(j 0).val, (j 0).isLt⟩ : Fin 512) k)) = _
    refine congrArg (V c (Pipeline.arrRef spec0 0)) (funext fun a => Fin.ext ?_)
    match a with
    | ⟨0, _⟩ =>
      show win0_0.index t (0 : Fin 2) * 512 + 1 * (j 0).val = win0_4.index t (0 : Fin 2) * 512 + 1 * (j 0).val
      omega
    | ⟨1, _⟩ =>
      show win0_0.index t (1 : Fin 2) * 1024 + 1 * k.val = k.val
      omega
  · show V c (Pipeline.arrRef spec0 1) (((cfg0.win 1).blk t).view.emb (ix2 k (⟨(j 1).val, (j 1).isLt⟩ : Fin 1024))) = _
    refine congrArg (V c (Pipeline.arrRef spec0 1)) (funext fun a => Fin.ext ?_)
    match a with
    | ⟨0, _⟩ =>
      show win0_1.index t (0 : Fin 2) * 1024 + 1 * k.val = k.val
      omega
    | ⟨1, _⟩ =>
      show win0_1.index t (1 : Fin 2) * 1024 + 1 * (j 1).val = win0_4.index t (1 : Fin 2) * 1024 + 1 * (j 1).val
      omega

/-- An index of the array is in point t's block of window 4 iff each coordinate is in the block's range on its axis. -/
theorem mem_blk0_4 (t : Fin cfg0.N) (i : S4096x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v3_0).slice (win0_4.rect t)).set ↔ _
  rw [View.set_slice_whole, Rect.mem_set_unit]
  exact Iff.rfl

/-- Every index of window 4's array is in some point's block: row r is in the block of point r / 512. -/
theorem cover0_4 (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_4 _, ?_⟩
  rw [mem_blk0_4]
  obtain ⟨e00, e01, e10, e11, e20, e21, e30, e31, e40, e41, e50, e51, e60, e61⟩ :=
    idx_facts0 ⟨(i 0).val / 512, by rw [hN]; omega⟩
  intro a
  match a with
  | ⟨0, _⟩ =>
    show win0_4.index _ (0 : Fin 2) * 512 ≤ (i 0).val ∧ (i 0).val < win0_4.index _ (0 : Fin 2) * 512 + 512
    rw [e40]
    show (i 0).val / 512 * 512 ≤ (i 0).val ∧ (i 0).val < (i 0).val / 512 * 512 + 512
    omega
  | ⟨1, _⟩ =>
    show win0_4.index _ (1 : Fin 2) * 1024 ≤ (i 1).val ∧ (i 1).val < win0_4.index _ (1 : Fin 2) * 1024 + 1024
    rw [e41]
    omega

/-- After the projection region, window 4's array is the product of the x array with window 1's matrix. -/
theorem final0_4 (c : Dev nD) :
    (dat0 V c).arrAt 4 cfg0.N = projOf (V c (Pipeline.arrRef spec0 0)) (V c (Pipeline.arrRef spec0 1)) :=
  (dat0 V c).arrAt_eq_of_cover 4 _ (fun t _ => flushed0_4_eq V c t) cover0_4

/-! ## Output window 5: the key projection -/

/-- What point t writes back to output window 5 is block t of the product of the x array with window 2's matrix:
    the output block is rows 512t … 512t+511, the x block the same rows, the matrix block the whole matrix. -/
theorem flushed0_5_eq (c : Dev nD) (t : Fin cfg0.N) :
    (dat0 V c).flushed 5 t = ((cfg0.win 5).blk t).view.read (Elt Ideal)
      (projOf (V c (Pipeline.arrRef spec0 0)) (V c (Pipeline.arrRef spec0 2))) := by
  show (cfg0.win 5).cut (grid0.coords t) ((dat0 V c).after 5 t) = _
  rw [after0_5]
  unfold out0_5
  rw [View.canon_unit_zero hz0]
  simp only [View.ld_unit_zero (S := S512x1024) hz0, View.ld_unit_zero (S := S1024x1024) hz0]
  funext j
  obtain ⟨e00, e01, e10, e11, e20, e21, e30, e31, e40, e41, e50, e51, e60, e61⟩ := idx_facts0 t
  have hj : (win0 5).xinj (grid0.coords t) j
      = ix2 (⟨(j 0).val, (j 0).isLt⟩ : Fin 512) (⟨(j 1).val, (j 1).isLt⟩ : Fin 1024) :=
    funext fun a => by match a with | ⟨0, _⟩ => rfl | ⟨1, _⟩ => rfl
  show k0_pay3 (iblk0 V c 0 t) (iblk0 V c 2 t) ((win0 5).xinj (grid0.coords t) j)
    = projOf (V c (Pipeline.arrRef spec0 0)) (V c (Pipeline.arrRef spec0 2)) (((cfg0.win 5).blk t).view.emb j)
  refine (congrArg (k0_pay3 (iblk0 V c 0 t) (iblk0 V c 2 t)) hj).trans ?_
  refine k0_pay3_at _ _ _ _ _ _ _ (fun k => ?_) (fun k => ?_)
  · show V c (Pipeline.arrRef spec0 0) (((cfg0.win 0).blk t).view.emb (ix2 (⟨(j 0).val, (j 0).isLt⟩ : Fin 512) k)) = _
    refine congrArg (V c (Pipeline.arrRef spec0 0)) (funext fun a => Fin.ext ?_)
    match a with
    | ⟨0, _⟩ =>
      show win0_0.index t (0 : Fin 2) * 512 + 1 * (j 0).val = win0_5.index t (0 : Fin 2) * 512 + 1 * (j 0).val
      omega
    | ⟨1, _⟩ =>
      show win0_0.index t (1 : Fin 2) * 1024 + 1 * k.val = k.val
      omega
  · show V c (Pipeline.arrRef spec0 2) (((cfg0.win 2).blk t).view.emb (ix2 k (⟨(j 1).val, (j 1).isLt⟩ : Fin 1024))) = _
    refine congrArg (V c (Pipeline.arrRef spec0 2)) (funext fun a => Fin.ext ?_)
    match a with
    | ⟨0, _⟩ =>
      show win0_2.index t (0 : Fin 2) * 1024 + 1 * k.val = k.val
      omega
    | ⟨1, _⟩ =>
      show win0_2.index t (1 : Fin 2) * 1024 + 1 * (j 1).val = win0_5.index t (1 : Fin 2) * 1024 + 1 * (j 1).val
      omega

/-- An index of the array is in point t's block of window 5 iff each coordinate is in the block's range on its axis. -/
theorem mem_blk0_5 (t : Fin cfg0.N) (i : S4096x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v3_1).slice (win0_5.rect t)).set ↔ _
  rw [View.set_slice_whole, Rect.mem_set_unit]
  exact Iff.rfl

/-- Every index of window 5's array is in some point's block: row r is in the block of point r / 512. -/
theorem cover0_5 (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_5 _, ?_⟩
  rw [mem_blk0_5]
  obtain ⟨e00, e01, e10, e11, e20, e21, e30, e31, e40, e41, e50, e51, e60, e61⟩ :=
    idx_facts0 ⟨(i 0).val / 512, by rw [hN]; omega⟩
  intro a
  match a with
  | ⟨0, _⟩ =>
    show win0_5.index _ (0 : Fin 2) * 512 ≤ (i 0).val ∧ (i 0).val < win0_5.index _ (0 : Fin 2) * 512 + 512
    rw [e50]
    show (i 0).val / 512 * 512 ≤ (i 0).val ∧ (i 0).val < (i 0).val / 512 * 512 + 512
    omega
  | ⟨1, _⟩ =>
    show win0_5.index _ (1 : Fin 2) * 1024 ≤ (i 1).val ∧ (i 1).val < win0_5.index _ (1 : Fin 2) * 1024 + 1024
    rw [e51]
    omega

/-- After the projection region, window 5's array is the product of the x array with window 2's matrix. -/
theorem final0_5 (c : Dev nD) :
    (dat0 V c).arrAt 5 cfg0.N = projOf (V c (Pipeline.arrRef spec0 0)) (V c (Pipeline.arrRef spec0 2)) :=
  (dat0 V c).arrAt_eq_of_cover 5 _ (fun t _ => flushed0_5_eq V c t) cover0_5

/-! ## Output window 6: the value projection -/

/-- What point t writes back to output window 6 is block t of the product of the x array with window 3's matrix:
    the output block is rows 512t … 512t+511, the x block the same rows, the matrix block the whole matrix. -/
theorem flushed0_6_eq (c : Dev nD) (t : Fin cfg0.N) :
    (dat0 V c).flushed 6 t = ((cfg0.win 6).blk t).view.read (Elt Ideal)
      (projOf (V c (Pipeline.arrRef spec0 0)) (V c (Pipeline.arrRef spec0 3))) := by
  show (cfg0.win 6).cut (grid0.coords t) ((dat0 V c).after 6 t) = _
  rw [after0_6]
  unfold out0_6
  rw [View.canon_unit_zero hz0]
  simp only [View.ld_unit_zero (S := S512x1024) hz0, View.ld_unit_zero (S := S1024x1024) hz0]
  funext j
  obtain ⟨e00, e01, e10, e11, e20, e21, e30, e31, e40, e41, e50, e51, e60, e61⟩ := idx_facts0 t
  have hj : (win0 6).xinj (grid0.coords t) j
      = ix2 (⟨(j 0).val, (j 0).isLt⟩ : Fin 512) (⟨(j 1).val, (j 1).isLt⟩ : Fin 1024) :=
    funext fun a => by match a with | ⟨0, _⟩ => rfl | ⟨1, _⟩ => rfl
  show k0_pay4 (iblk0 V c 0 t) (iblk0 V c 3 t) ((win0 6).xinj (grid0.coords t) j)
    = projOf (V c (Pipeline.arrRef spec0 0)) (V c (Pipeline.arrRef spec0 3)) (((cfg0.win 6).blk t).view.emb j)
  refine (congrArg (k0_pay4 (iblk0 V c 0 t) (iblk0 V c 3 t)) hj).trans ?_
  refine k0_pay4_at _ _ _ _ _ _ _ (fun k => ?_) (fun k => ?_)
  · show V c (Pipeline.arrRef spec0 0) (((cfg0.win 0).blk t).view.emb (ix2 (⟨(j 0).val, (j 0).isLt⟩ : Fin 512) k)) = _
    refine congrArg (V c (Pipeline.arrRef spec0 0)) (funext fun a => Fin.ext ?_)
    match a with
    | ⟨0, _⟩ =>
      show win0_0.index t (0 : Fin 2) * 512 + 1 * (j 0).val = win0_6.index t (0 : Fin 2) * 512 + 1 * (j 0).val
      omega
    | ⟨1, _⟩ =>
      show win0_0.index t (1 : Fin 2) * 1024 + 1 * k.val = k.val
      omega
  · show V c (Pipeline.arrRef spec0 3) (((cfg0.win 3).blk t).view.emb (ix2 k (⟨(j 1).val, (j 1).isLt⟩ : Fin 1024))) = _
    refine congrArg (V c (Pipeline.arrRef spec0 3)) (funext fun a => Fin.ext ?_)
    match a with
    | ⟨0, _⟩ =>
      show win0_3.index t (0 : Fin 2) * 1024 + 1 * k.val = k.val
      omega
    | ⟨1, _⟩ =>
      show win0_3.index t (1 : Fin 2) * 1024 + 1 * (j 1).val = win0_6.index t (1 : Fin 2) * 1024 + 1 * (j 1).val
      omega

/-- An index of the array is in point t's block of window 6 iff each coordinate is in the block's range on its axis. -/
theorem mem_blk0_6 (t : Fin cfg0.N) (i : S4096x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v3_2).slice (win0_6.rect t)).set ↔ _
  rw [View.set_slice_whole, Rect.mem_set_unit]
  exact Iff.rfl

/-- Every index of window 6's array is in some point's block: row r is in the block of point r / 512. -/
theorem cover0_6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_6 _, ?_⟩
  rw [mem_blk0_6]
  obtain ⟨e00, e01, e10, e11, e20, e21, e30, e31, e40, e41, e50, e51, e60, e61⟩ :=
    idx_facts0 ⟨(i 0).val / 512, by rw [hN]; omega⟩
  intro a
  match a with
  | ⟨0, _⟩ =>
    show win0_6.index _ (0 : Fin 2) * 512 ≤ (i 0).val ∧ (i 0).val < win0_6.index _ (0 : Fin 2) * 512 + 512
    rw [e60]
    show (i 0).val / 512 * 512 ≤ (i 0).val ∧ (i 0).val < (i 0).val / 512 * 512 + 512
    omega
  | ⟨1, _⟩ =>
    show win0_6.index _ (1 : Fin 2) * 1024 ≤ (i 1).val ∧ (i 1).val < win0_6.index _ (1 : Fin 2) * 1024 + 1024
    rw [e61]
    omega

/-- After the projection region, window 6's array is the product of the x array with window 3's matrix. -/
theorem final0_6 (c : Dev nD) :
    (dat0 V c).arrAt 6 cfg0.N = projOf (V c (Pipeline.arrRef spec0 0)) (V c (Pipeline.arrRef spec0 3)) :=
  (dat0 V c).arrAt_eq_of_cover 6 _ (fun t _ => flushed0_6_eq V c t) cover0_6

end Cert.KernelIdeal.Hand

end
-- ==== Proof.LibOnlineSoftmax.lean ====
/-
  The streaming ("online") softmax, as pure mathematics over the extended reals.

  A row of N real scores s and N real values v is read in blocks of c lanes.  A streaming
  evaluation keeps three numbers: the running maximum M of the scores seen so far, the running
  normaliser L = Σ exp(s_i − M) and the running accumulator A = Σ exp(s_i − M)·v_i, both over the
  lanes seen so far.  Reading one more block with block maximum m_b, it sets M' = max M m_b and
  rescales what it carries by exp(M − M') before adding the block's own terms exp(s_i − M') and
  exp(s_i − M')·v_i.  The first running maximum is −∞ (⊥), so the states live in the extended
  reals, with the imported library's extended-real exp (exp ⊥ = 0) and div.

  This file proves, for any N, c and any real s, v:
  * Inv  — the invariant: after n blocks M is the real maximum of the first n·c scores (attained),
           L and A are the two sums over those lanes, shifted by that maximum;
  * step — one block's update takes the start state (⊥, 0, 0), or a state satisfying Inv at n,
           to a state satisfying Inv at n + 1;
  * final — once all N = nb·c lanes are read, A / L equals the one-pass softmax-weighted sum
           Σ_i (exp(s_i − max s) / Σ_k exp(s_k − max s)) · v_i, the maximum being the fold of max
           from ⊥ over the row;
  together with small general facts used on the way: the coercion ℝ → EReal commutes with finite
  sums (coe_finset_sum), the fold of max from ⊥ over coerced reals is the coercion of the real
  maximum (fold_max_eq_coe, fold_max_coe', fold_max_coe), and the lanes below (n+1)·c split into
  the lanes below n·c and the block (sum_filter_succ).
-/
import Idealize.ShloMosaic.PureOps.Ideal

noncomputable section

namespace Cert.OnlineSoftmax

open Idealize.ShloMosaic

/-! ### Coercions and the fold of max -/

/-- The coercion ℝ → EReal commutes with finite sums. -/
theorem coe_finset_sum {ι : Type*} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- The coercion ℝ → EReal commutes with max. -/
theorem coe_max (a b : ℝ) : max (a : EReal) (b : EReal) = ((max a b : ℝ) : EReal) :=
  (EReal.coe_strictMono.monotone.map_max).symm

/-- exp of a difference of two reals, computed in the extended reals, is the real exp. -/
theorem exp_coe_sub (a b : ℝ) :
    Ideal.exp ((a : EReal) - (b : EReal)) = ((Real.exp (a - b) : ℝ) : EReal) := by
  rw [← EReal.coe_sub]; rfl

/-- exp(−∞ − r) = 0. -/
theorem exp_bot_sub (x : EReal) : Ideal.exp (⊥ - x) = 0 := by
  rw [EReal.bot_sub]; rfl

/-- If the real m bounds f on t and is attained there, the fold of max from ⊥ over the coerced
    values is ↑m. -/
theorem fold_max_eq_coe {ι : Type*} (t : Finset ι) (f : ι → ℝ) (m : ℝ)
    (hle : ∀ j ∈ t, f j ≤ m) (hex : ∃ j ∈ t, f j = m) :
    t.fold max ⊥ (fun j => ((f j : ℝ) : EReal)) = (m : EReal) := by
  obtain ⟨j, hj, hjm⟩ := hex
  refine le_antisymm ?_ ?_
  · rw [Finset.fold_max_le]
    exact ⟨bot_le, fun x hx => EReal.coe_le_coe_iff.mpr (hle x hx)⟩
  · rw [Finset.le_fold_max]
    exact Or.inr ⟨j, hj, by rw [hjm]⟩

/-- Over a nonempty finite set the fold of max from ⊥ over coerced reals is the coercion of a
    real, which bounds every value and is one of them. -/
theorem fold_max_coe' {ι : Type*} (t : Finset ι) (ht : t.Nonempty) (f : ι → ℝ) :
    ∃ m : ℝ, t.fold max ⊥ (fun j => ((f j : ℝ) : EReal)) = (m : EReal) ∧
      (∀ j ∈ t, f j ≤ m) ∧ ∃ j ∈ t, f j = m := by
  obtain ⟨j, hj, hjm⟩ := Finset.exists_mem_eq_sup' ht f
  have hle : ∀ x ∈ t, f x ≤ t.sup' ht f := fun x hx => Finset.le_sup' f hx
  exact ⟨t.sup' ht f, fold_max_eq_coe t f _ hle ⟨j, hj, hjm.symm⟩, hle, j, hj, hjm.symm⟩

/-- The same over all c > 0 lanes of a block. -/
theorem fold_max_coe {c : ℕ} (hc : 0 < c) (f : Fin c → ℝ) :
    ∃ m : ℝ, (Finset.univ : Finset (Fin c)).fold max ⊥ (fun j => ((f j : ℝ) : EReal)) = (m : EReal) ∧
      (∀ j, f j ≤ m) ∧ ∃ j, f j = m := by
  haveI : Nonempty (Fin c) := ⟨⟨0, hc⟩⟩
  obtain ⟨m, h1, h2, j, _, h3⟩ := fold_max_coe' Finset.univ Finset.univ_nonempty f
  exact ⟨m, h1, fun j => h2 j (Finset.mem_univ j), j, h3⟩

/-! ### The lanes of one block -/

/-- Lane j of block n, as a position in the row of length N. -/
def lane {N : ℕ} (c n : ℕ) (hn : (n + 1) * c ≤ N) (j : Fin c) : Fin N :=
  ⟨n * c + j.val, by have := j.isLt; rw [Nat.add_mul, Nat.one_mul] at hn; omega⟩

@[simp] theorem lane_val {N : ℕ} (c n : ℕ) (hn : (n + 1) * c ≤ N) (j : Fin c) :
    (lane c n hn j).val = n * c + j.val := rfl

/-- Every position of block n is one of its lanes. -/
theorem exists_lane {N : ℕ} (c n : ℕ) (hn : (n + 1) * c ≤ N) (i : Fin N)
    (h1 : n * c ≤ i.val) (h2 : i.val < (n + 1) * c) : ∃ j : Fin c, lane c n hn j = i := by
  refine ⟨⟨i.val - n * c, ?_⟩, ?_⟩
  · rw [Nat.add_mul, Nat.one_mul] at h2; omega
  · apply Fin.ext; simp only [lane_val]; omega

/-- The lanes below (n+1)·c are the lanes below n·c together with block n. -/
theorem sum_filter_succ {N : ℕ} (c n : ℕ) (hn : (n + 1) * c ≤ N) (g : Fin N → ℝ) :
    ∑ i ∈ Finset.univ.filter (fun i : Fin N => i.val < (n + 1) * c), g i =
      ∑ i ∈ Finset.univ.filter (fun i : Fin N => i.val < n * c), g i +
        ∑ j : Fin c, g (lane c n hn j) := by
  have hle : n * c ≤ (n + 1) * c := Nat.mul_le_mul_right c (Nat.le_succ n)
  rw [← Finset.sum_filter_add_sum_filter_not
        (Finset.univ.filter (fun i : Fin N => i.val < (n + 1) * c)) (fun i : Fin N => i.val < n * c) g]
  congr 1
  · apply Finset.sum_congr _ (fun _ _ => rfl)
    ext i
    simp only [Finset.mem_filter, Finset.mem_univ, true_and]
    exact ⟨fun h => h.2, fun h => ⟨lt_of_lt_of_le h hle, h⟩⟩
  · symm
    refine Finset.sum_bij (fun j _ => lane c n hn j) ?_ ?_ ?_ ?_
    · intro j _
      simp only [Finset.mem_filter, Finset.mem_univ, true_and, lane_val]
      have := j.isLt
      constructor
      · rw [Nat.add_mul, Nat.one_mul]; omega
      · omega
    · intro a _ b _ h
      have := congrArg Fin.val h
      simp only [lane_val] at this
      exact Fin.ext (by omega)
    · intro i hi
      simp only [Finset.mem_filter, Finset.mem_univ, true_and] at hi
      obtain ⟨j, hj⟩ := exists_lane c n hn i (by omega) hi.1
      exact ⟨j, Finset.mem_univ _, hj⟩
    · intro j _; rfl

/-! ### The invariant, one step, and the end -/

/-- After the first n blocks of c lanes: M is the (real) maximum of the scores seen, L the sum of
    exp(s − M) and A the sum of exp(s − M)·v over the lanes seen. -/
def Inv {N : ℕ} (c : ℕ) (s v : Fin N → ℝ) (n : ℕ) (M L A : EReal) : Prop :=
  ∃ m : ℝ, M = (m : EReal) ∧ (∀ i : Fin N, i.val < n * c → s i ≤ m) ∧ (∃ i : Fin N, i.val < n * c ∧ s i = m) ∧
    L = ((∑ i ∈ Finset.univ.filter (fun i : Fin N => i.val < n * c), Real.exp (s i - m) : ℝ) : EReal) ∧
    A = ((∑ i ∈ Finset.univ.filter (fun i : Fin N => i.val < n * c), Real.exp (s i - m) * v i : ℝ) : EReal)

/-- The step in its bare form: if m' is the maximum of the first (n+1)·c scores, and L0, A0 are
    the two sums over the first n·c lanes already shifted by m', then adding block n's terms
    gives the invariant at n + 1. -/
theorem step_core {N : ℕ} (c : ℕ) (s v : Fin N → ℝ) (n : ℕ) (hn : (n + 1) * c ≤ N) (m' : ℝ)
    (hle : ∀ i : Fin N, i.val < (n + 1) * c → s i ≤ m')
    (hex : ∃ i : Fin N, i.val < (n + 1) * c ∧ s i = m')
    (L0 A0 : EReal)
    (hL0 : L0 = ((∑ i ∈ Finset.univ.filter (fun i : Fin N => i.val < n * c), Real.exp (s i - m') : ℝ) : EReal))
    (hA0 : A0 = ((∑ i ∈ Finset.univ.filter (fun i : Fin N => i.val < n * c), Real.exp (s i - m') * v i : ℝ) : EReal))
    (S V : Fin c → EReal)
    (hS : ∀ j : Fin c, S j = ((s (lane c n hn j) : ℝ) : EReal))
    (hV : ∀ j : Fin c, V j = ((v (lane c n hn j) : ℝ) : EReal)) :
    Inv c s v (n + 1) (m' : EReal) (L0 + ∑ j : Fin c, Ideal.exp (S j - (m' : EReal)))
      (A0 + ∑ j : Fin c, Ideal.exp (S j - (m' : EReal)) * V j) := by
  refine ⟨m', rfl, hle, hex, ?_, ?_⟩
  · rw [sum_filter_succ c n hn, EReal.coe_add, coe_finset_sum Finset.univ, hL0]
    congr 1
    apply Finset.sum_congr rfl
    intro j _
    rw [hS j, exp_coe_sub]
  · rw [sum_filter_succ c n hn, EReal.coe_add, coe_finset_sum Finset.univ, hA0]
    congr 1
    apply Finset.sum_congr rfl
    intro j _
    rw [hS j, hV j, exp_coe_sub, EReal.coe_mul]

/-- One block: from the start state (⊥, 0, 0) at n = 0, or from Inv at n, the update the kernel
    performs gives Inv at n+1. -/
theorem step {N : ℕ} (c : ℕ) (hc : 0 < c) (s v : Fin N → ℝ) (n : ℕ) (hn : (n + 1) * c ≤ N) (M L A : EReal)
    (h0 : (n = 0 ∧ M = ⊥ ∧ L = 0 ∧ A = 0) ∨ Inv c s v n M L A)
    (S V : Fin c → EReal)
    (hS : ∀ (j : Fin c) (i : Fin N), i.val = n * c + j.val → S j = ((s i : ℝ) : EReal))
    (hV : ∀ (j : Fin c) (i : Fin N), i.val = n * c + j.val → V j = ((v i : ℝ) : EReal))
    (M' : EReal) (hM' : M' = max M ((Finset.univ : Finset (Fin c)).fold max ⊥ S)) :
    Inv c s v (n + 1) M' (Ideal.exp (M - M') * L + ∑ j : Fin c, Ideal.exp (S j - M'))
      (Ideal.exp (M - M') * A + ∑ j : Fin c, Ideal.exp (S j - M') * V j) := by
  have hSe : ∀ j : Fin c, S j = ((s (lane c n hn j) : ℝ) : EReal) := fun j => hS j _ rfl
  have hVe : ∀ j : Fin c, V j = ((v (lane c n hn j) : ℝ) : EReal) := fun j => hV j _ rfl
  -- the block's own maximum m_b, attained at lane j_b
  obtain ⟨mb, hmb, hmble, jb, hjb⟩ := fold_max_coe hc (fun j => s (lane c n hn j))
  have hfold : (Finset.univ : Finset (Fin c)).fold max ⊥ S = (mb : EReal) := by
    rw [← hmb]; congr 1; exact funext hSe
  have hnc : n * c ≤ (n + 1) * c := Nat.mul_le_mul_right c (Nat.le_succ n)
  rcases h0 with ⟨hn0, hM, hL, hA⟩ | ⟨m, hM, hle, ⟨i0, hi0, hi0m⟩, hL, hA⟩
  · -- first block: nothing is carried, the new maximum is the block's
    have hM'' : M' = (mb : EReal) := by rw [hM', hfold, hM, max_eq_right bot_le]
    rw [hM'', hM, hL, hA, mul_zero]
    refine step_core c s v n hn mb ?_ ?_ 0 0 ?_ ?_ S V hSe hVe
    · intro i hi
      obtain ⟨j, rfl⟩ := exists_lane c n hn i (by rw [hn0]; omega) hi
      exact hmble j
    · exact ⟨lane c n hn jb, by rw [lane_val, Nat.add_mul, Nat.one_mul]; have := jb.isLt; omega, hjb⟩
    · rw [hn0]; simp
    · rw [hn0]; simp
  · -- later blocks: the new maximum is max m m_b and the carried sums are rescaled
    have hM'' : M' = ((max m mb : ℝ) : EReal) := by rw [hM', hfold, hM, coe_max]
    rw [hM'', hM, hL, hA]
    refine step_core c s v n hn (max m mb) ?_ ?_ _ _ ?_ ?_ S V hSe hVe
    · intro i hi
      by_cases h : i.val < n * c
      · exact (hle i h).trans (le_max_left _ _)
      · obtain ⟨j, rfl⟩ := exists_lane c n hn i (by omega) hi
        exact (hmble j).trans (le_max_right _ _)
    · rcases le_total mb m with h | h
      · exact ⟨i0, lt_of_lt_of_le hi0 hnc, by rw [hi0m, max_eq_left h]⟩
      · exact ⟨lane c n hn jb, by rw [lane_val, Nat.add_mul, Nat.one_mul]; have := jb.isLt; omega,
          by rw [max_eq_right h]; exact hjb⟩
    · rw [exp_coe_sub, ← EReal.coe_mul, Finset.mul_sum]
      congr 1
      apply Finset.sum_congr rfl
      intro i _
      rw [← Real.exp_add]
      congr 1
      ring
    · rw [exp_coe_sub, ← EReal.coe_mul, Finset.mul_sum]
      congr 1
      apply Finset.sum_congr rfl
      intro i _
      rw [← mul_assoc, ← Real.exp_add]
      congr 2
      ring

/-- After all nb blocks the quotient A / L is the softmax-weighted sum, in the reference's
    spelling. -/
theorem final {N : ℕ} (c nb : ℕ) (hN : N = nb * c) (hpos : 0 < N) (s v : Fin N → ℝ) (M L A : EReal)
    (h : Inv c s v nb M L A) :
    Ideal.div A L = ∑ i : Fin N, Ideal.div (Ideal.exp (((s i : ℝ) : EReal) - (Finset.univ : Finset (Fin N)).fold max ⊥ (fun i => ((s i : ℝ) : EReal))))
        (∑ i : Fin N, Ideal.exp (((s i : ℝ) : EReal) - (Finset.univ : Finset (Fin N)).fold max ⊥ (fun i => ((s i : ℝ) : EReal)))) * ((v i : ℝ) : EReal) := by
  obtain ⟨m, _, hle, ⟨i0, _, hi0m⟩, hL, hA⟩ := h
  have hall : ∀ i : Fin N, i.val < nb * c := fun i => by have := i.isLt; omega
  have hfilter : Finset.univ.filter (fun i : Fin N => i.val < nb * c) = Finset.univ :=
    Finset.filter_true_of_mem (fun i _ => hall i)
  -- the row maximum is m
  have hfold : (Finset.univ : Finset (Fin N)).fold max ⊥ (fun i => ((s i : ℝ) : EReal)) = (m : EReal) :=
    fold_max_eq_coe Finset.univ s m (fun j _ => hle j (hall j)) ⟨i0, Finset.mem_univ _, hi0m⟩
  -- the normaliser is a positive real
  have hZ : (∑ i : Fin N, Ideal.exp (((s i : ℝ) : EReal) - (m : EReal)))
      = ((∑ i : Fin N, Real.exp (s i - m) : ℝ) : EReal) := by
    rw [coe_finset_sum]; exact Finset.sum_congr rfl (fun i _ => exp_coe_sub _ _)
  have hZpos : (0 : ℝ) < ∑ i : Fin N, Real.exp (s i - m) := by
    haveI : Nonempty (Fin N) := ⟨⟨0, hpos⟩⟩
    exact Finset.sum_pos (fun i _ => Real.exp_pos _) Finset.univ_nonempty
  have hterm : ∀ i : Fin N,
      Ideal.div (Ideal.exp (((s i : ℝ) : EReal) - (m : EReal))) ((∑ i : Fin N, Real.exp (s i - m) : ℝ) : EReal)
          * ((v i : ℝ) : EReal)
        = ((Real.exp (s i - m) * (1 / ∑ i : Fin N, Real.exp (s i - m)) * v i : ℝ) : EReal) := by
    intro i
    rw [Ideal.div_coe hZpos.ne', exp_coe_sub, ← EReal.coe_mul, ← EReal.coe_mul]
  rw [hfold, hZ, Finset.sum_congr rfl (fun i _ => hterm i), ← coe_finset_sum, hL, hA, hfilter,
    Ideal.div_coe hZpos.ne', ← EReal.coe_mul]
  congr 1
  rw [Finset.sum_mul]
  apply Finset.sum_congr rfl
  intro i _
  ring

end Cert.OnlineSoftmax

end
-- ==== Proof.Words.lean ====
/-
  The float words this kernel and its reference spell, as the extended reals their patterns denote:
  −∞ (the identity of the row maximum), 1/32 (the folded score scale), 1024 (the head width whose
  square root 32 divides the scores), and the two ways the scale 1/32 is applied.
-/
import Idealize.ShloMosaic.PureOps.Ideal
import Idealize.ShloMosaic.PureOps.Ideal.Laws

noncomputable section

namespace Cert.Words

open Idealize.ShloMosaic

/-- The pattern with sign set, all-ones exponent and zero fraction denotes −∞. -/
theorem ofBits_neg_inf : Ideal.ofBits .f32 0xFF800000#32 = (⊥ : EReal) := by
  simp [Ideal.ofBits, Ideal.ieee]

/-- `2^(-5)`: the pattern denotes the real 1/32. -/
theorem ofBits_inv32 : Ideal.ofBits .f32 0x3D000000#32 = ((1 / 32 : ℝ) : EReal) := by
  simp [Ideal.ofBits, Ideal.ieee, -EReal.coe_mul]; norm_num

/-- `2^10`: the pattern denotes the real 1024. -/
theorem ofBits_1024 : Ideal.ofBits .f32 0x44800000#32 = ((1024 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  have h : Real.sqrt 1024 = 32 := by
    rw [show (1024 : ℝ) = 32 ^ 2 by norm_num]
    exact Real.sqrt_sq (by norm_num)
  rw [Ideal.sqrt_coe, if_neg (by norm_num), h]

/-- Dividing by the square root of the word 1024 is multiplying by 1/32, at the infinities too. -/
theorem div_sqrt_1024 (x : EReal) :
    Ideal.div x (Ideal.sqrt (Ideal.ofBits .f32 0x44800000#32)) = x * ((1 / 32 : ℝ) : EReal) := by
  rw [ofBits_1024, sqrt_1024]
  exact Ideal.div_coe (by norm_num) x

/-- Multiplying by the word 1/32 is multiplying by the real 1/32. -/
theorem mul_inv32 (x : EReal) :
    x * Ideal.ofBits .f32 0x3D000000#32 = x * ((1 / 32 : ℝ) : EReal) := by
  rw [ofBits_inv32]

end Cert.Words

end
-- ==== Proof.KIRowRec.lean ====
/-
  One row block of the attention kernel, step by step, at the extended reals.

  For a fixed key block kb (512 rows of 1024 features) the kernel visits the 8 query blocks
  qbs 0 … qbs 7 and value blocks vbs 0 … vbs 7 (512 rows each) in turn.  It keeps, per key row p,
  a running maximum, a running normaliser and, per column d, a running accumulator; each visit
  replaces the three by the payload terms stepM, stepL, stepAcc below, and the first visit starts
  from (−∞, 0, 0).  After the last visit the result block is the accumulator divided by the
  normaliser.

  Read at row p (and column d) the three step functions are exactly the update of the streaming
  softmax (Cert.OnlineSoftmax.step) for the row of 4096 = 8·512 scaled scores
      rowScore j = (Σ_dd kb(p,dd) · qbs(j / 512)(j % 512, dd)) · (1/32)
  and the values rowVal j = vbs(j / 512)(j % 512, d).  When every entry of the blocks is a real
  number the scores and values are real, the invariant of the streaming softmax holds after every
  visit (state_inv), and the final quotient is the one-pass softmax-weighted sum (row_result).
-/
import proofs.«138961_j39316130628151_2_alg».proof.Proof.Gen.KernelIdeal.Skeleton
import proofs.«138961_j39316130628151_2_alg».proof.Proof.LibOnlineSoftmax
import proofs.«138961_j39316130628151_2_alg».proof.Proof.Words
import proofs.«138961_j39316130628151_2_alg».proof.Proof.PayloadsIdeal
import Idealize.ShloMosaic.Lib.ValueIdx

noncomputable section

open scoped BigOperators

namespace Cert.KernelIdeal.RowRec

open Cert.KernelIdeal Cert.KernelIdeal.Gen Idealize.ShloMosaic Idealize.ShloMosaic.ValueIdx

/-! ### The three step functions and their iteration -/

/-- The new running maximum, from a query block, the key block and the old maximum. -/
def stepM (qb kb : Vec Ideal S512x1024 .bf16) (mOld : Vec Ideal S512x1 .f32) : Vec Ideal S512x1 .f32 :=
  k1_pay2 (F := Ideal) (k1_pay9 (F := Ideal) qb kb mOld)

/-- The new running normaliser. -/
def stepL (qb kb : Vec Ideal S512x1024 .bf16) (mOld lOld : Vec Ideal S512x1 .f32) : Vec Ideal S512x1 .f32 :=
  k1_pay12 (F := Ideal) qb kb mOld mOld lOld

/-- The new running accumulator, from the value block as well. -/
def stepAcc (vb qb kb : Vec Ideal S512x1024 .bf16) (mOld : Vec Ideal S512x1 .f32)
    (accOld : Vec Ideal S512x1024 .f32) : Vec Ideal S512x1024 .f32 :=
  k1_pay1 (F := Ideal) (k1_pay7 (F := Ideal) vb) (k1_pay10 (F := Ideal) qb kb mOld mOld)
    (k1_pay11 (F := Ideal) qb kb mOld) accOld

/-- The three running quantities: maximum, normaliser, accumulator. -/
abbrev St : Type := Vec Ideal S512x1 .f32 × Vec Ideal S512x1 .f32 × Vec Ideal S512x1024 .f32

/-- One visit: all three updated from the old three. -/
def stepAll (kb qb vb : Vec Ideal S512x1024 .bf16) (st : St) : St :=
  (stepM qb kb st.1, stepL qb kb st.1 st.2.1, stepAcc vb qb kb st.1 st.2.2)

/-- The start of a row block: (−∞, 0, 0). -/
def init : St := (k1_pay4 (F := Ideal), k1_pay5 (F := Ideal), k1_pay6 (F := Ideal))

/-- The three running quantities after visit n (counted from 0). -/
def state (kb : Vec Ideal S512x1024 .bf16) (qbs vbs : ℕ → Vec Ideal S512x1024 .bf16) : ℕ → St
  | 0 => stepAll kb (qbs 0) (vbs 0) init
  | n + 1 => stepAll kb (qbs (n + 1)) (vbs (n + 1)) (state kb qbs vbs n)

/-! ### The scores and values of a row -/

/-- The scaled score of key row p against row j of one query block. -/
def blkScore (kb qb : Vec Ideal S512x1024 .bf16) (p j : Fin 512) : EReal :=
  (∑ dd : Fin 1024, kb (ix2 p dd) * qb (ix2 j dd)) * ((1 / 32 : ℝ) : EReal)

/-- The position of column j of the row inside its block of 512. -/
def lo (j : Fin 4096) : Fin 512 := ⟨j.val % 512, Nat.mod_lt _ (by norm_num)⟩

@[simp] theorem lo_val (j : Fin 4096) : (lo j).val = j.val % 512 := rfl

/-- The scaled score of key row p against query row j of the whole sequence, j = 512·(block) + (row
    in the block). -/
def rowScore (kb : Vec Ideal S512x1024 .bf16) (qbs : ℕ → Vec Ideal S512x1024 .bf16) (p : Fin 512)
    (j : Fin 4096) : EReal :=
  blkScore kb (qbs (j.val / 512)) p (lo j)

/-- Entry (j, d) of the whole value sequence. -/
def rowVal (vbs : ℕ → Vec Ideal S512x1024 .bf16) (d : Fin 1024) (j : Fin 4096) : EReal :=
  vbs (j.val / 512) (ix2 (lo j) d)

theorem rowScore_apply (kb : Vec Ideal S512x1024 .bf16) (qbs : ℕ → Vec Ideal S512x1024 .bf16) (p : Fin 512)
    (j : Fin 4096) :
    rowScore kb qbs p j
      = (∑ dd : Fin 1024, kb (ix2 p dd)
          * qbs (j.val / 512) (ix2 (⟨j.val % 512, Nat.mod_lt _ (by norm_num)⟩ : Fin 512) dd))
        * ((1 / 32 : ℝ) : EReal) := rfl

theorem rowVal_apply (vbs : ℕ → Vec Ideal S512x1024 .bf16) (d : Fin 1024) (j : Fin 4096) :
    rowVal vbs d j = vbs (j.val / 512) (ix2 (⟨j.val % 512, Nat.mod_lt _ (by norm_num)⟩ : Fin 512) d) := rfl

/-! ### The step functions read at a row -/

/-- The score payload at (p, j) is the scaled score. -/
theorem pay8_eq (qb kb : Vec Ideal S512x1024 .bf16) (p j : Fin 512) :
    k1_pay8 (F := Ideal) qb kb (ix2 p j) = blkScore kb qb p j := by
  rw [Pay.pay8_apply, Cert.Words.mul_inv32]
  rfl

/-- The new maximum of row p: the larger of the old one and the block's largest score. -/
theorem pay9_eq (qb kb : Vec Ideal S512x1024 .bf16) (mOld : Vec Ideal S512x1 .f32) (p : Fin 512) :
    k1_pay9 (F := Ideal) qb kb mOld (ix2 p 0)
      = max (mOld (ix2 p 0)) ((Finset.univ : Finset (Fin 512)).fold max ⊥ (fun j => blkScore kb qb p j)) := by
  have h : (fun j : Fin 512 => k1_pay8 (F := Ideal) qb kb (ix2 p j)) = fun j => blkScore kb qb p j :=
    funext fun j => pay8_eq qb kb p j
  rw [Pay.pay9_apply, Cert.Words.ofBits_neg_inf, h]

theorem stepM_apply (qb kb : Vec Ideal S512x1024 .bf16) (mOld : Vec Ideal S512x1 .f32) (p : Fin 512) :
    stepM qb kb mOld (ix2 p 0) = k1_pay9 (F := Ideal) qb kb mOld (ix2 p 0) := by
  unfold stepM
  rw [Pay.pay2'_eq]

theorem stepL_apply (qb kb : Vec Ideal S512x1024 .bf16) (mOld lOld : Vec Ideal S512x1 .f32) (p : Fin 512) :
    stepL qb kb mOld lOld (ix2 p 0)
      = Ideal.exp (mOld (ix2 p 0) - k1_pay9 (F := Ideal) qb kb mOld (ix2 p 0)) * lOld (ix2 p 0)
        + ∑ j : Fin 512, Ideal.exp (blkScore kb qb p j - k1_pay9 (F := Ideal) qb kb mOld (ix2 p 0)) := by
  unfold stepL
  rw [Pay.pay12_apply, Pay.pay10_apply]
  congr 1
  exact Finset.sum_congr rfl fun j _ => by rw [Pay.pay11_apply, pay8_eq]

theorem stepAcc_apply (vb qb kb : Vec Ideal S512x1024 .bf16) (mOld : Vec Ideal S512x1 .f32)
    (accOld : Vec Ideal S512x1024 .f32) (p : Fin 512) (d : Fin 1024) :
    stepAcc vb qb kb mOld accOld (ix2 p d)
      = Ideal.exp (mOld (ix2 p 0) - k1_pay9 (F := Ideal) qb kb mOld (ix2 p 0)) * accOld (ix2 p d)
        + ∑ j : Fin 512, Ideal.exp (blkScore kb qb p j - k1_pay9 (F := Ideal) qb kb mOld (ix2 p 0)) * vb (ix2 j d) := by
  unfold stepAcc
  rw [Pay.pay1_apply, Pay.pay10_apply, Pay.pay7_eq]
  congr 1
  exact Finset.sum_congr rfl fun j _ => by rw [Pay.pay11_apply, pay8_eq]

/-! ### The invariant of the streaming softmax along the visits -/

/-- One visit carries the invariant from n to n + 1 (or establishes it at 1 from the start values),
    for any real row s, v that the scores and values of the row coerce from. -/
theorem stepAll_inv (kb : Vec Ideal S512x1024 .bf16) (qbs vbs : ℕ → Vec Ideal S512x1024 .bf16)
    (s v : Fin 4096 → ℝ) (p : Fin 512) (d : Fin 1024)
    (hs : ∀ i : Fin 4096, rowScore kb qbs p i = ((s i : ℝ) : EReal))
    (hv : ∀ i : Fin 4096, rowVal vbs d i = ((v i : ℝ) : EReal))
    (n : ℕ) (hn : (n + 1) * 512 ≤ 4096) (st : St)
    (h0 : (n = 0 ∧ st.1 (ix2 p 0) = ⊥ ∧ st.2.1 (ix2 p 0) = 0 ∧ st.2.2 (ix2 p d) = 0) ∨
      Cert.OnlineSoftmax.Inv 512 s v n (st.1 (ix2 p 0)) (st.2.1 (ix2 p 0)) (st.2.2 (ix2 p d))) :
    Cert.OnlineSoftmax.Inv 512 s v (n + 1) ((stepAll kb (qbs n) (vbs n) st).1 (ix2 p 0))
      ((stepAll kb (qbs n) (vbs n) st).2.1 (ix2 p 0)) ((stepAll kb (qbs n) (vbs n) st).2.2 (ix2 p d)) := by
  -- column i = 512·n + j of the row lies in block n, at position j
  have hlane : ∀ (j : Fin 512) (i : Fin 4096), i.val = n * 512 + j.val → i.val / 512 = n ∧ lo i = j := by
    intro j i h
    have := j.isLt
    refine ⟨by omega, Fin.ext ?_⟩
    show i.val % 512 = j.val
    omega
  show Cert.OnlineSoftmax.Inv 512 s v (n + 1) (stepM (qbs n) kb st.1 (ix2 p 0))
      (stepL (qbs n) kb st.1 st.2.1 (ix2 p 0)) (stepAcc (vbs n) (qbs n) kb st.1 st.2.2 (ix2 p d))
  rw [stepM_apply, stepL_apply, stepAcc_apply]
  exact Cert.OnlineSoftmax.step 512 (by norm_num) s v n hn _ _ _ h0
    (fun j => blkScore kb (qbs n) p j) (fun j => vbs n (ix2 j d))
    (fun j i h => by
      obtain ⟨h1, h2⟩ := hlane j i h
      rw [← hs i, rowScore, h1, h2])
    (fun j i h => by
      obtain ⟨h1, h2⟩ := hlane j i h
      rw [← hv i, rowVal, h1, h2])
    _ (pay9_eq (qbs n) kb st.1 p)

theorem init_M (p : Fin 512) : init.1 (ix2 p 0) = (⊥ : EReal) :=
  (Pay.pay4_apply (ix2 p 0)).trans Cert.Words.ofBits_neg_inf

theorem init_L (p : Fin 512) : init.2.1 (ix2 p 0) = (0 : EReal) := Pay.pay5_apply (ix2 p 0)

theorem init_A (p : Fin 512) (d : Fin 1024) : init.2.2 (ix2 p d) = (0 : EReal) := Pay.pay6_apply (ix2 p d)

/-- After visit n ≤ 7 the three running quantities of row p (column d) satisfy the invariant of
    the streaming softmax at n + 1 blocks. -/
theorem state_inv (kb : Vec Ideal S512x1024 .bf16) (qbs vbs : ℕ → Vec Ideal S512x1024 .bf16)
    (s v : Fin 4096 → ℝ) (p : Fin 512) (d : Fin 1024)
    (hs : ∀ i : Fin 4096, rowScore kb qbs p i = ((s i : ℝ) : EReal))
    (hv : ∀ i : Fin 4096, rowVal vbs d i = ((v i : ℝ) : EReal))
    (n : ℕ) (hn : n ≤ 7) :
    Cert.OnlineSoftmax.Inv 512 s v (n + 1) ((state kb qbs vbs n).1 (ix2 p 0))
      ((state kb qbs vbs n).2.1 (ix2 p 0)) ((state kb qbs vbs n).2.2 (ix2 p d)) := by
  induction n with
  | zero =>
    exact stepAll_inv kb qbs vbs s v p d hs hv 0 (by norm_num) init
      (Or.inl ⟨rfl, init_M p, init_L p, init_A p d⟩)
  | succ n ih =>
    exact stepAll_inv kb qbs vbs s v p d hs hv (n + 1) (by omega) (state kb qbs vbs n)
      (Or.inr (ih (by omega)))

/-! ### Real entries give real scores; the result of the row block -/

/-- A scaled score of blocks with real entries is a real number. -/
theorem isReal_blkScore (kb qb : Vec Ideal S512x1024 .bf16)
    (hk : ∀ i, ∃ r : ℝ, kb i = (r : EReal)) (hq : ∀ i, ∃ r : ℝ, qb i = (r : EReal)) (p j : Fin 512) :
    ∃ r : ℝ, blkScore kb qb p j = (r : EReal) := by
  choose kr hkr using hk
  choose qr hqr using hq
  refine ⟨(∑ dd : Fin 1024, kr (ix2 p dd) * qr (ix2 j dd)) * (1 / 32), ?_⟩
  unfold blkScore
  rw [EReal.coe_mul, Cert.OnlineSoftmax.coe_finset_sum]
  congr 1
  exact Finset.sum_congr rfl fun dd _ => by rw [hkr, hqr, EReal.coe_mul]

/-- The result of a row block at (p, d): after the 8 visits, the accumulator over the normaliser is
    the softmax of row p's 4096 scaled scores, weighted against column d of the values. -/
theorem row_result (kb : Vec Ideal S512x1024 .bf16) (qbs vbs : ℕ → Vec Ideal S512x1024 .bf16)
    (hk : ∀ i, ∃ r : ℝ, kb i = (r : EReal)) (hq : ∀ n i, ∃ r : ℝ, qbs n i = (r : EReal))
    (hv : ∀ n i, ∃ r : ℝ, vbs n i = (r : EReal)) (p : Fin 512) (d : Fin 1024) :
    k1_pay3 (F := Ideal) (state kb qbs vbs 7).2.2 (state kb qbs vbs 7).2.1 (ix2 p d)
      = ∑ j : Fin 4096,
          Ideal.div (Ideal.exp (rowScore kb qbs p j - (Finset.univ : Finset (Fin 4096)).fold max ⊥ (rowScore kb qbs p)))
            (∑ j : Fin 4096, Ideal.exp (rowScore kb qbs p j - (Finset.univ : Finset (Fin 4096)).fold max ⊥ (rowScore kb qbs p)))
          * rowVal vbs d j := by
  choose s hs using fun j : Fin 4096 => isReal_blkScore kb (qbs (j.val / 512)) hk (hq _) p (lo j)
  choose v hv' using fun j : Fin 4096 => hv (j.val / 512) (ix2 (lo j) d)
  have hinv := state_inv kb qbs vbs s v p d hs hv' 7 le_rfl
  have e1 : rowScore kb qbs p = fun i => ((s i : ℝ) : EReal) := funext hs
  have e2 : rowVal vbs d = fun i => ((v i : ℝ) : EReal) := funext hv'
  rw [Pay.pay3_apply, e1, e2]
  exact Cert.OnlineSoftmax.final 512 8 (by norm_num) (by norm_num) s v _ _ _ hinv

end Cert.KernelIdeal.RowRec

end
-- ==== Proof.Spec.lean ====
/-
  The function both programs compute, at the extended reals, index by index.

  With q = x·Wq, k = x·Wk, v = x·Wv (each entry a sum of 1024 products), the score of row i against
  row j is s(i,j) = (Σ_d k(i,d)·q(j,d)) · (1/32); row i of the result is the softmax-weighted
  combination of the rows of v:
      out(i,d) = Σ_j ( exp(s(i,j) − M_i) / L_i ) · v(j,d),
  where M_i is the maximum over j of s(i,j) and L_i = Σ_j exp(s(i,j) − M_i).
-/
import Idealize.ShloMosaic.PureOps.Ideal
import Idealize.ShloMosaic.Lib.ValueIdx

noncomputable section

namespace Cert.Spec

open Idealize.ShloMosaic Idealize.ShloMosaic.ValueIdx

/-- A [4096, 1024] array of extended reals (the input x, the projections, the result). -/
abbrev Arr := (⟨2, ![4096, 1024]⟩ : Shape).Idx → EReal
/-- A [1024, 1024] array of extended reals (a weight matrix). -/
abbrev Wt := (⟨2, ![1024, 1024]⟩ : Shape).Idx → EReal

/-- One entry of a projection x·w: the sum over the 1024 input features. -/
def proj (x : Arr) (w : Wt) (i : Fin 4096) (d : Fin 1024) : EReal :=
  ∑ k : Fin 1024, x (ix2 i k) * w (ix2 k d)

/-- The scaled score of key row i against query row j: (k_i · q_j) / 32. -/
def score (x : Arr) (wq wk : Wt) (i j : Fin 4096) : EReal :=
  (∑ d : Fin 1024, proj x wk i d * proj x wq j d) * ((1 / 32 : ℝ) : EReal)

/-- The largest score of row i (the fold of max from −∞ over the 4096 columns). -/
def rowMax (x : Arr) (wq wk : Wt) (i : Fin 4096) : EReal :=
  (Finset.univ : Finset (Fin 4096)).fold max ⊥ (fun j => score x wq wk i j)

/-- The normaliser of row i: the sum of the shifted exponentials. -/
def rowSum (x : Arr) (wq wk : Wt) (i : Fin 4096) : EReal :=
  ∑ j : Fin 4096, Ideal.exp (score x wq wk i j - rowMax x wq wk i)

/-- The result: softmax(k·qᵀ/32)·v, entry by entry. -/
def G (x : Arr) (wq wk wv : Wt) : Arr := fun idx =>
  ∑ j : Fin 4096, Ideal.div (Ideal.exp (score x wq wk (idx 0) j - rowMax x wq wk (idx 0))) (rowSum x wq wk (idx 0))
    * proj x wv j (idx 1)

end Cert.Spec

end
-- ==== Proof.KISpecRow.lean ====
/-
  The row recurrence against the specification.

  With the three projections k = x·Wk, q = x·Wq, v = x·Wv of the input taken as arrays and cut into
  blocks of 512 rows, the result of the 8 visits of key block mi at (p, d) is entry
  (512·mi + p, d) of the specified function: the softmax of that row's 4096 scaled scores against
  column d of the values.  The scores and values of the recurrence are those of the specification
  because column j of the row is row j % 512 of block j / 512, and 512·(j / 512) + j % 512 = j.
-/
import proofs.«138961_j39316130628151_2_alg».proof.Proof.KIRowRec
import proofs.«138961_j39316130628151_2_alg».proof.Proof.Spec

noncomputable section

open scoped BigOperators

namespace Cert.KernelIdeal.RowRec

open Cert.KernelIdeal Cert.KernelIdeal.Gen Idealize.ShloMosaic Idealize.ShloMosaic.ValueIdx

/-- A projection as an array. -/
def projArr (x : Cert.Spec.Arr) (w : Cert.Spec.Wt) : Cert.Spec.Arr :=
  fun idx => Cert.Spec.proj x w (idx 0) (idx 1)

/-- Rows 512·n … 512·n+511 of a [4096,1024] array as a [512,1024] block (the row index taken mod
    4096 so that the definition is total in n). -/
def blkOf (Z : Cert.Spec.Arr) (n : ℕ) : Vec Ideal S512x1024 .bf16 :=
  fun idx => Z (ix2 (⟨(512 * n + (idx 0).val) % 4096, Nat.mod_lt _ (by norm_num)⟩ : Fin 4096) (idx 1))

theorem blkOf_apply (Z : Cert.Spec.Arr) (n : ℕ) (p : Fin 512) (d : Fin 1024) :
    blkOf Z n (ix2 p d)
      = Z (ix2 (⟨(512 * n + p.val) % 4096, Nat.mod_lt _ (by norm_num)⟩ : Fin 4096) d) := rfl

/-- Row p of block n of a projection is row i = 512·n + p of the projection. -/
theorem blkOf_proj (x : Cert.Spec.Arr) (w : Cert.Spec.Wt) (n : ℕ) (p : Fin 512) (dd : Fin 1024)
    (i : Fin 4096) (hi : i.val = 512 * n + p.val) :
    blkOf (projArr x w) n (ix2 p dd) = Cert.Spec.proj x w i dd := by
  have e : (⟨(512 * n + p.val) % 4096, Nat.mod_lt _ (by norm_num)⟩ : Fin 4096) = i :=
    Fin.ext (by
      show (512 * n + p.val) % 4096 = i.val
      have := i.isLt
      rw [Nat.mod_eq_of_lt (by omega)]
      exact hi.symm)
  rw [blkOf_apply, ← e]
  rfl

/-! ### Real inputs give real blocks -/

/-- A finite sum of products of real numbers is a real number. -/
theorem isReal_sum_mul {ι : Type*} (t : Finset ι) (f g : ι → EReal)
    (hf : ∀ i, ∃ r : ℝ, f i = (r : EReal)) (hg : ∀ i, ∃ r : ℝ, g i = (r : EReal)) :
    ∃ r : ℝ, ∑ i ∈ t, f i * g i = (r : EReal) := by
  choose fr hfr using hf
  choose gr hgr using hg
  refine ⟨∑ i ∈ t, fr i * gr i, ?_⟩
  rw [Cert.OnlineSoftmax.coe_finset_sum]
  exact Finset.sum_congr rfl fun i _ => by rw [hfr, hgr, EReal.coe_mul]

/-- Every entry of a projection of a real input by a real weight matrix is real. -/
theorem isReal_proj (x : Cert.Spec.Arr) (w : Cert.Spec.Wt) (hx : ∀ i, ∃ r : ℝ, x i = (r : EReal))
    (hw : ∀ i, ∃ r : ℝ, w i = (r : EReal)) (i : Fin 4096) (d : Fin 1024) :
    ∃ r : ℝ, Cert.Spec.proj x w i d = (r : EReal) :=
  isReal_sum_mul Finset.univ (fun k : Fin 1024 => x (ix2 i k)) (fun k : Fin 1024 => w (ix2 k d))
    (fun _ => hx _) (fun _ => hw _)

/-- Every entry of every block of such a projection is real. -/
theorem isReal_blkOf (x : Cert.Spec.Arr) (w : Cert.Spec.Wt) (hx : ∀ i, ∃ r : ℝ, x i = (r : EReal))
    (hw : ∀ i, ∃ r : ℝ, w i = (r : EReal)) (n : ℕ) (i : S512x1024.Idx) :
    ∃ r : ℝ, blkOf (projArr x w) n i = (r : EReal) :=
  isReal_proj x w hx hw _ _

/-! ### The scores and values of the recurrence are the specification's -/

/-- Column j of the row is row j % 512 of block j / 512. -/
theorem split_val (j : Fin 4096) : j.val = 512 * (j.val / 512) + (lo j).val := by
  rw [lo_val]; omega

theorem rowScore_spec (x : Cert.Spec.Arr) (wq wk : Cert.Spec.Wt) (mi : Fin 8) (p : Fin 512)
    (i : Fin 4096) (hi : i.val = 512 * mi.val + p.val) (j : Fin 4096) :
    rowScore (blkOf (projArr x wk) mi.val) (blkOf (projArr x wq)) p j = Cert.Spec.score x wq wk i j := by
  unfold rowScore blkScore Cert.Spec.score
  congr 1
  exact Finset.sum_congr rfl fun dd _ => by
    rw [blkOf_proj x wk mi.val p dd i hi, blkOf_proj x wq (j.val / 512) (lo j) dd j (split_val j)]

theorem rowVal_spec (x : Cert.Spec.Arr) (wv : Cert.Spec.Wt) (d : Fin 1024) (j : Fin 4096) :
    rowVal (blkOf (projArr x wv)) d j = Cert.Spec.proj x wv j d := by
  unfold rowVal
  exact blkOf_proj x wv (j.val / 512) (lo j) d j (split_val j)

/-- The result of the 8 visits of key block mi, at (p, d), is the specified function at
    (512·mi + p, d). -/
theorem spec_row (x : Cert.Spec.Arr) (wq wk wv : Cert.Spec.Wt)
    (hx : ∀ i, ∃ r : ℝ, x i = (r : EReal)) (hwq : ∀ i, ∃ r : ℝ, wq i = (r : EReal))
    (hwk : ∀ i, ∃ r : ℝ, wk i = (r : EReal)) (hwv : ∀ i, ∃ r : ℝ, wv i = (r : EReal))
    (mi : Fin 8) (p : Fin 512) (d : Fin 1024) :
    k1_pay3 (F := Ideal)
        (state (blkOf (projArr x wk) mi.val) (blkOf (projArr x wq)) (blkOf (projArr x wv)) 7).2.2
        (state (blkOf (projArr x wk) mi.val) (blkOf (projArr x wq)) (blkOf (projArr x wv)) 7).2.1 (ix2 p d)
      = Cert.Spec.G x wq wk wv (ix2 (⟨512 * mi.val + p.val, by omega⟩ : Fin 4096) d) := by
  have hS : rowScore (blkOf (projArr x wk) mi.val) (blkOf (projArr x wq)) p
      = fun j => Cert.Spec.score x wq wk (⟨512 * mi.val + p.val, by omega⟩ : Fin 4096) j :=
    funext fun j => rowScore_spec x wq wk mi p _ rfl j
  have hV : rowVal (blkOf (projArr x wv)) d = fun j => Cert.Spec.proj x wv j d :=
    funext fun j => rowVal_spec x wv d j
  rw [row_result _ _ _ (isReal_blkOf x wk hx hwk mi.val) (fun n => isReal_blkOf x wq hx hwq n)
    (fun n => isReal_blkOf x wv hx hwv n) p d, hS, hV]
  unfold Cert.Spec.G Cert.Spec.rowSum Cert.Spec.rowMax
  exact Finset.sum_congr rfl fun j _ => rfl

end Cert.KernelIdeal.RowRec

end
-- ==== Proof.FiniteInputs.lean ====
/-
  Finiteness of the four argument arrays, read back from the precondition.

  The precondition is the conjunction, over the four arguments, of "every entry x has |x| < +∞", each
  conjunct being an and-reduction over all indices of the entrywise comparison. If the whole predicate
  is 1 then each conjunct is 1, so each entrywise comparison is 1 at every index; and over the extended
  reals |x| = max x (−x) < ⊤ fails at ⊤ and at ⊥, so x is a real number.
-/
import proofs.«138961_j39316130628151_2_alg».proof.Defs
import proofs.«138961_j39316130628151_2_alg».proof.Proof.Gen.Pre_finite_inputs
import Idealize.ShloMosaic.Lib.ReduceAll
import Idealize.ShloMosaic.PureOps.Ideal.Laws

noncomputable section

namespace Cert.FiniteInputs

open Idealize.ShloMosaic Idealize.SL.Sem

/-- The rank-0 shape has exactly one index. -/
instance : Subsingleton Cert.Pre_finite_inputs.S_.Idx := ⟨fun a b => funext fun d => d.elim0⟩

/-- One entry: if the comparison |x| < +∞ comes out 1 then x is a real number. The pattern
    0x7F800000 denotes ⊤; max x (−x) is ⊤ at both infinities, so only a real passes. -/
theorem real_of_abs_lt_inf (x : EReal)
    (h : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

open Cert.Pre_finite_inputs in
/-- The predicate, at the extended reals, on any four arrays of the arguments' shapes: if it is 1 then
    every entry of every array is a real number. The value at the one rank-0 index is the conjunction
    of four and-reductions; each being 1 gives the entrywise comparison 1 at every index. -/
theorem finite_of_fn [hF : Cert.Pre_finite_inputs.Facts]
    (a0 : FVec Ideal S4096x1024 .f32) (a1 a2 a3 : FVec Ideal S1024x1024 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) := by
  have h0 := congrFun h (fun a => a.elim0)
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  refine ⟨fun i => ?_, fun i => ?_, fun i => ?_, fun i => ?_⟩
  · exact real_of_abs_lt_inf _ (Host.reduce_andi_all _ _ _ _ _ e0 i)
  · exact real_of_abs_lt_inf _ (Host.reduce_andi_all _ _ _ _ _ e1 i)
  · exact real_of_abs_lt_inf _ (Host.reduce_andi_all _ _ _ _ _ e2 i)
  · exact real_of_abs_lt_inf _ (Host.reduce_andi_all _ _ _ _ _ e3 i)

/-- Under the kernel's precondition, on every device, every entry of each of the four argument arrays
    is a real number. -/
theorem finite_of_pre
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) :=
  finite_of_fn (hF := Cert.Pre_finite_inputs.Gen.facts) _ _ _ _ (h c)

end Cert.FiniteInputs

end
-- ==== Proof.KIValue.lean ====
/-
  The value of the kernel program at the extended reals: the result array the attention region's write-backs
  leave is the specification's array of the four argument arrays, when these are finite.

  The attention region is entered with q = x·Wq, k = x·Wk, v = x·Wv (the projection region's three arrays; the host
  roundings are the identity).  Along the 8 steps of a row block the three scratch buffers hold the iterates of the
  streaming-softmax step from (−∞, 0, 0) on the step's query and value rows — by induction over the grid points —,
  the last step's output block is the quotient accumulator / normaliser, which is the specification's row block, and
  the blocks written back at the last steps cover the result array.
-/
import proofs.«138961_j39316130628151_2_alg».proof.Proof.KIRun
import proofs.«138961_j39316130628151_2_alg».proof.Proof.KIPieces
import proofs.«138961_j39316130628151_2_alg».proof.Proof.KIBlocks1
import proofs.«138961_j39316130628151_2_alg».proof.Proof.KIValue0
import proofs.«138961_j39316130628151_2_alg».proof.Proof.KISpecRow
import proofs.«138961_j39316130628151_2_alg».proof.Proof.FiniteInputs
import proofs.«138961_j39316130628151_2_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.RowRec

variable (m : (ℓ : Loc nD τ sig) → Buf (Elt Ideal) ℓ) (c : Dev nD)

/-- The four argument arrays on core c. -/
abbrev Xa : Cert.Spec.Arr := m ((c : Thread nD τ).loc main_arg0)
abbrev Wq : Cert.Spec.Wt := m ((c : Thread nD τ).loc main_arg1)
abbrev Wk : Cert.Spec.Wt := m ((c : Thread nD τ).loc main_arg2)
abbrev Wv : Cert.Spec.Wt := m ((c : Thread nD τ).loc main_arg3)

/-! ## The arrays the attention region is entered with -/

theorem V1_main_v0 : (V1 (F := Ideal) m c main_v0 : S1024x1024.Idx → EReal) = Wq m c := by
  show StableHlo.after hostOps0 (W0 m c) (Proc.devRef .tc main_v0) = _
  after_results; rfl
theorem V1_main_v1 : (V1 (F := Ideal) m c main_v1 : S1024x1024.Idx → EReal) = Wk m c := by
  show StableHlo.after hostOps0 (W0 m c) (Proc.devRef .tc main_v1) = _
  after_results; rfl
theorem V1_main_v2 : (V1 (F := Ideal) m c main_v2 : S1024x1024.Idx → EReal) = Wv m c := by
  show StableHlo.after hostOps0 (W0 m c) (Proc.devRef .tc main_v2) = _
  after_results; rfl
theorem V1_main_arg0 : (V1 (F := Ideal) m c main_arg0 : S4096x1024.Idx → EReal) = Xa m c :=
  W1_of_not_written m c main_arg0 (by decide) (by decide) (by decide)

/-- The query array: x·Wq. -/
theorem V2_q_eq : (V2 (F := Ideal) m c (Pipeline.arrRef spec1 1) : S4096x1024.Idx → EReal) = projArr (Xa m c) (Wq m c) :=
  (W2_arr m c 4).trans ((final0_4 (V1 m) c).trans (congrArg₂ projOf (V1_main_arg0 m c) (V1_main_v0 m c)))
/-- The key array: x·Wk. -/
theorem V2_k_eq : (V2 (F := Ideal) m c (Pipeline.arrRef spec1 0) : S4096x1024.Idx → EReal) = projArr (Xa m c) (Wk m c) :=
  (W2_arr m c 5).trans ((final0_5 (V1 m) c).trans (congrArg₂ projOf (V1_main_arg0 m c) (V1_main_v1 m c)))
/-- The value array: x·Wv. -/
theorem V2_v_eq : (V2 (F := Ideal) m c (Pipeline.arrRef spec1 2) : S4096x1024.Idx → EReal) = projArr (Xa m c) (Wv m c) :=
  (W2_arr m c 6).trans ((final0_6 (V1 m) c).trans (congrArg₂ projOf (V1_main_arg0 m c) (V1_main_v2 m c)))

/-! ## The blocks a grid point reads -/

theorem kblk_eq (t : Fin cfg1.N) : (iblk1 (V2 m) c 0 t : Vec Ideal S512x1024 .bf16) = blkOf (projArr (Xa m c) (Wk m c)) (t.val / 8) := by
  have hN : t.val < 64 := lt_of_lt_of_eq t.isLt N_1
  funext idx
  obtain ⟨p, d, rfl⟩ : ∃ (p : Fin 512) (d : Fin 1024), idx = ix2 p d := ⟨idx 0, idx 1, eq_ix2 idx⟩
  rw [kblk_apply, blkOf_apply, V2_k_eq]
  exact congrArg (fun i => projArr (Xa m c) (Wk m c) (ix2 i d)) (Fin.ext (by dsimp only; have := p.isLt; omega))

theorem qblk_eq (t : Fin cfg1.N) : (View.ld (iblk1 (V2 m) c 1 t : Vec Ideal S4096x1024 .bf16) (rQ (grid1.coords t)) : Vec Ideal S512x1024 .bf16) = blkOf (projArr (Xa m c) (Wq m c)) (t.val % 8) := by
  funext idx
  obtain ⟨j, d, rfl⟩ : ∃ (j : Fin 512) (d : Fin 1024), idx = ix2 j d := ⟨idx 0, idx 1, eq_ix2 idx⟩
  rw [ld_step_apply, qarr_apply, blkOf_apply, V2_q_eq]
  exact congrArg (fun i => projArr (Xa m c) (Wq m c) (ix2 i d)) (Fin.ext (by dsimp only; have := j.isLt; omega))

theorem vblk_eq (t : Fin cfg1.N) : (View.ld (iblk1 (V2 m) c 2 t : Vec Ideal S4096x1024 .bf16) (rQ (grid1.coords t)) : Vec Ideal S512x1024 .bf16) = blkOf (projArr (Xa m c) (Wv m c)) (t.val % 8) := by
  funext idx
  obtain ⟨j, d, rfl⟩ : ∃ (j : Fin 512) (d : Fin 1024), idx = ix2 j d := ⟨idx 0, idx 1, eq_ix2 idx⟩
  rw [ld_step_apply, varr_apply, blkOf_apply, V2_v_eq]
  exact congrArg (fun i => projArr (Xa m c) (Wv m c) (ix2 i d)) (Fin.ext (by dsimp only; have := j.isLt; omega))

/-! ## The three cases as one step of the streaming softmax -/

theorem stepAll_congr {kb kb' qb qb' vb vb' : Vec Ideal S512x1024 .bf16} (hk : kb = kb') (hq : qb = qb') (hv : vb = vb') (st : St) :
    stepAll kb qb vb st = stepAll kb' qb' vb' st := by subst hk hq hv; rfl

theorem ptA_raw (t : Fin cfg1.N) (h0 : t.val % 8 = 0) :
    ptA (V2 m) c t h0 = stepAll (iblk1 (V2 m) c 0 t) (View.ld (iblk1 (V2 m) c 1 t) (rQ (grid1.coords t))) (View.ld (iblk1 (V2 m) c 2 t) (rQ (grid1.coords t))) init := by
  unfold ptA stepAll stepM stepL stepAcc init
  dsimp only
  rw [Prod.mk.injEq, Prod.mk.injEq]
  exact ⟨sout1_A_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (notLast_of_first t h0) (iblk1 (V2 m) c 0 t) (iblk1 (V2 m) c 1 t) (iblk1 (V2 m) c 2 t),
    sout1_A_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (notLast_of_first t h0) (iblk1 (V2 m) c 0 t) (iblk1 (V2 m) c 1 t) (iblk1 (V2 m) c 2 t),
    sout1_A_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (notLast_of_first t h0) (iblk1 (V2 m) c 0 t) (iblk1 (V2 m) c 1 t) (iblk1 (V2 m) c 2 t)⟩

theorem ptB_raw (t : Fin cfg1.N) (h0 : ¬t.val % 8 = 0) (h1 : ¬t.val % 8 = 7) (xs : St) :
    ptB (V2 m) c t h0 h1 xs = stepAll (iblk1 (V2 m) c 0 t) (View.ld (iblk1 (V2 m) c 1 t) (rQ (grid1.coords t))) (View.ld (iblk1 (V2 m) c 2 t) (rQ (grid1.coords t))) xs := by
  unfold ptB stepAll stepM stepL stepAcc
  dsimp only
  rw [Prod.mk.injEq, Prod.mk.injEq]
  exact ⟨sout1_B_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 (V2 m) c 0 t) (iblk1 (V2 m) c 1 t) (iblk1 (V2 m) c 2 t) xs.1 xs.2.1 xs.2.2,
    sout1_B_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 (V2 m) c 0 t) (iblk1 (V2 m) c 1 t) (iblk1 (V2 m) c 2 t) xs.1 xs.2.1 xs.2.2,
    sout1_B_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 (V2 m) c 0 t) (iblk1 (V2 m) c 1 t) (iblk1 (V2 m) c 2 t) xs.1 xs.2.1 xs.2.2⟩

theorem ptC_raw (t : Fin cfg1.N) (h1 : t.val % 8 = 7) (xs : St) :
    ptC (V2 m) c t h1 xs = (k1_pay3 (stepAll (iblk1 (V2 m) c 0 t) (View.ld (iblk1 (V2 m) c 1 t) (rQ (grid1.coords t))) (View.ld (iblk1 (V2 m) c 2 t) (rQ (grid1.coords t))) xs).2.2 (stepAll (iblk1 (V2 m) c 0 t) (View.ld (iblk1 (V2 m) c 1 t) (rQ (grid1.coords t))) (View.ld (iblk1 (V2 m) c 2 t) (rQ (grid1.coords t))) xs).2.1, stepAll (iblk1 (V2 m) c 0 t) (View.ld (iblk1 (V2 m) c 1 t) (rQ (grid1.coords t))) (View.ld (iblk1 (V2 m) c 2 t) (rQ (grid1.coords t))) xs) := by
  unfold ptC stepAll stepM stepL stepAcc
  dsimp only
  rw [Prod.mk.injEq, Prod.mk.injEq, Prod.mk.injEq]
  exact ⟨out1_C_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (notFirst_of_last t h1) ((hcond1_1 t).mpr h1) (iblk1 (V2 m) c 0 t) (iblk1 (V2 m) c 1 t) (iblk1 (V2 m) c 2 t) xs.1 xs.2.1 xs.2.2,
    sout1_C_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (notFirst_of_last t h1) ((hcond1_1 t).mpr h1) (iblk1 (V2 m) c 0 t) (iblk1 (V2 m) c 1 t) (iblk1 (V2 m) c 2 t) xs.1 xs.2.1 xs.2.2,
    sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (notFirst_of_last t h1) ((hcond1_1 t).mpr h1) (iblk1 (V2 m) c 0 t) (iblk1 (V2 m) c 1 t) (iblk1 (V2 m) c 2 t) xs.1 xs.2.1 xs.2.2,
    sout1_C_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (notFirst_of_last t h1) ((hcond1_1 t).mpr h1) (iblk1 (V2 m) c 0 t) (iblk1 (V2 m) c 1 t) (iblk1 (V2 m) c 2 t) xs.1 xs.2.1 xs.2.2⟩

theorem blocks_eq (t : Fin cfg1.N) (st : St) :
    stepAll (iblk1 (V2 m) c 0 t) (View.ld (iblk1 (V2 m) c 1 t) (rQ (grid1.coords t))) (View.ld (iblk1 (V2 m) c 2 t) (rQ (grid1.coords t))) st = stepAll (blkOf (projArr (Xa m c) (Wk m c)) (t.val / 8)) (blkOf (projArr (Xa m c) (Wq m c)) (t.val % 8)) (blkOf (projArr (Xa m c) (Wv m c)) (t.val % 8)) st :=
  stepAll_congr (kblk_eq m c t) (qblk_eq m c t) (vblk_eq m c t) st

theorem ptA_eq (t : Fin cfg1.N) (h0 : t.val % 8 = 0) :
    ptA (V2 m) c t h0 = stepAll (blkOf (projArr (Xa m c) (Wk m c)) (t.val / 8)) (blkOf (projArr (Xa m c) (Wq m c)) (t.val % 8)) (blkOf (projArr (Xa m c) (Wv m c)) (t.val % 8)) init :=
  (ptA_raw m c t h0).trans (blocks_eq m c t init)

theorem ptB_eq (t : Fin cfg1.N) (h0 : ¬t.val % 8 = 0) (h1 : ¬t.val % 8 = 7) (xs : St) :
    ptB (V2 m) c t h0 h1 xs = stepAll (blkOf (projArr (Xa m c) (Wk m c)) (t.val / 8)) (blkOf (projArr (Xa m c) (Wq m c)) (t.val % 8)) (blkOf (projArr (Xa m c) (Wv m c)) (t.val % 8)) xs :=
  (ptB_raw m c t h0 h1 xs).trans (blocks_eq m c t xs)

theorem ptC_eq (t : Fin cfg1.N) (h1 : t.val % 8 = 7) (xs : St) :
    ptC (V2 m) c t h1 xs = (k1_pay3 (stepAll (blkOf (projArr (Xa m c) (Wk m c)) (t.val / 8)) (blkOf (projArr (Xa m c) (Wq m c)) (t.val % 8)) (blkOf (projArr (Xa m c) (Wv m c)) (t.val % 8)) xs).2.2 (stepAll (blkOf (projArr (Xa m c) (Wk m c)) (t.val / 8)) (blkOf (projArr (Xa m c) (Wq m c)) (t.val % 8)) (blkOf (projArr (Xa m c) (Wv m c)) (t.val % 8)) xs).2.1, stepAll (blkOf (projArr (Xa m c) (Wk m c)) (t.val / 8)) (blkOf (projArr (Xa m c) (Wq m c)) (t.val % 8)) (blkOf (projArr (Xa m c) (Wv m c)) (t.val % 8)) xs) := by
  rw [ptC_raw, blocks_eq]

/-! ## The scratch buffers along the grid -/

theorem outsAt1_succ_A (n : ℕ) (hn : n + 1 < cfg1.N) (h0 : (n + 1) % 8 = 0) :
    outsAt1 (V2 m) c (n + 1) hn = (junkOut, ptA (V2 m) c ⟨n + 1, hn⟩ h0) := dif_pos h0
theorem outsAt1_succ_B (n : ℕ) (hn : n + 1 < cfg1.N) (h0 : ¬(n + 1) % 8 = 0) (h1 : ¬(n + 1) % 8 = 7) :
    outsAt1 (V2 m) c (n + 1) hn = (junkOut, ptB (V2 m) c ⟨n + 1, hn⟩ h0 h1 (outsAt1 (V2 m) c n (Nat.lt_of_succ_lt hn)).2) :=
  (dif_neg h0).trans ((dif_neg h1).trans rfl)
theorem outsAt1_succ_C (n : ℕ) (hn : n + 1 < cfg1.N) (h0 : ¬(n + 1) % 8 = 0) (h1 : (n + 1) % 8 = 7) :
    outsAt1 (V2 m) c (n + 1) hn = ptC (V2 m) c ⟨n + 1, hn⟩ h1 (outsAt1 (V2 m) c n (Nat.lt_of_succ_lt hn)).2 :=
  (dif_neg h0).trans ((dif_pos h1).trans rfl)

/-- After the step n of the grid (n = 8·mi + k) the scratch buffers hold the k-th iterate of the streaming step on row block mi. -/
theorem scratch_eq : ∀ (n : ℕ) (hn : n < cfg1.N),
    (outsAt1 (V2 m) c n hn).2 = state (blkOf (projArr (Xa m c) (Wk m c)) (n / 8)) (blkOf (projArr (Xa m c) (Wq m c))) (blkOf (projArr (Xa m c) (Wv m c))) (n % 8) := by
  intro n
  induction n with
  | zero =>
    intro hn
    rw [show outsAt1 (V2 m) c 0 hn = (junkOut, ptA (V2 m) c ⟨0, hn⟩ (Nat.zero_mod 8)) from rfl]
    dsimp only
    rw [ptA_eq]
    rfl
  | succ n ih =>
    intro hn
    have hN : n + 1 < 64 := lt_of_lt_of_eq hn N_1
    by_cases h0 : (n + 1) % 8 = 0
    · rw [outsAt1_succ_A m c n hn h0]
      dsimp only
      rw [ptA_eq]
      dsimp only
      rw [h0]
      rfl
    · have e1 : (n + 1) / 8 = n / 8 := by omega
      have e2 : (n + 1) % 8 = n % 8 + 1 := by omega
      by_cases h1 : (n + 1) % 8 = 7
      · rw [outsAt1_succ_C m c n hn h0 h1, ptC_eq]
        dsimp only
        rw [ih (Nat.lt_of_succ_lt hn), e1, e2]
        rfl
      · rw [outsAt1_succ_B m c n hn h0 h1]
        dsimp only
        rw [ptB_eq]
        dsimp only
        rw [ih (Nat.lt_of_succ_lt hn), e1, e2]
        rfl

/-! ## The output block of a last step, and the result array -/

theorem out_eq (hx : ∀ i, ∃ r : ℝ, Xa m c i = (r : EReal)) (hwq : ∀ i, ∃ r : ℝ, Wq m c i = (r : EReal))
    (hwk : ∀ i, ∃ r : ℝ, Wk m c i = (r : EReal)) (hwv : ∀ i, ∃ r : ℝ, Wv m c i = (r : EReal))
    (t : Fin cfg1.N) (h1 : t.val % 8 = 7) (p : Fin 512) (d : Fin 1024) :
    (outsAt1 (V2 m) c t.val t.isLt).1 (ix2 p d)
      = Cert.Spec.G (Xa m c) (Wq m c) (Wk m c) (Wv m c) (ix2 (⟨512 * (t.val / 8) + p.val, by have := lt_of_lt_of_eq t.isLt N_1; have := p.isLt; omega⟩ : Fin 4096) d) := by
  have hN : t.val < 64 := lt_of_lt_of_eq t.isLt N_1
  obtain ⟨n, hn⟩ := t
  cases n with
  | zero => exact absurd h1 (by show ¬ (0 % 8 = 7); decide)
  | succ n =>
    have h0 : ¬(n + 1) % 8 = 0 := by dsimp only at h1; omega
    have e1 : (n + 1) / 8 = n / 8 := by omega
    have e2 : n % 8 = 6 := by dsimp only at h1; omega
    show (outsAt1 (V2 m) c (n + 1) hn).1 (ix2 p d) = _
    rw [outsAt1_succ_C m c n hn h0 h1, ptC_eq]
    dsimp only
    rw [scratch_eq m c n (Nat.lt_of_succ_lt hn)]
    have h7 : (n + 1) % 8 = 7 := h1
    have hst : stepAll (blkOf (projArr (Xa m c) (Wk m c)) ((n + 1) / 8)) (blkOf (projArr (Xa m c) (Wq m c)) ((n + 1) % 8))
          (blkOf (projArr (Xa m c) (Wv m c)) ((n + 1) % 8))
          (state (blkOf (projArr (Xa m c) (Wk m c)) (n / 8)) (blkOf (projArr (Xa m c) (Wq m c))) (blkOf (projArr (Xa m c) (Wv m c))) (n % 8))
        = state (blkOf (projArr (Xa m c) (Wk m c)) ((n + 1) / 8)) (blkOf (projArr (Xa m c) (Wq m c))) (blkOf (projArr (Xa m c) (Wv m c))) 7 := by
      rw [← e1, h7, e2]; rfl
    rw [hst]
    have hmi : (n + 1) / 8 < 8 := by dsimp only at hN; omega
    exact (spec_row (Xa m c) (Wq m c) (Wk m c) (Wv m c) hx hwq hwk hwv ⟨(n + 1) / 8, hmi⟩ p d)

/-- THE VALUE: with finite inputs the result array is the specification's. -/
theorem kernel_value (hpre : Cert.Pre_KernelIdeal (hPre_finite_inputs := Cert.Pre_finite_inputs.Gen.facts) m) (c : Dev nD) :
    (dat1 (V2 m) c).arrAt 3 cfg1.N = Cert.Spec.G (Xa m c) (Wq m c) (Wk m c) (Wv m c) := by
  obtain ⟨hx, hwq, hwk, hwv⟩ := Cert.FiniteInputs.finite_of_pre m hpre c
  exact final1_3 (V2 m) c _ (fun t h1 p d => out_eq m c hx hwq hwk hwv t h1 p d)

end Cert.KernelIdeal.Hand

end
-- ==== Proof.RefValue.lean ====
/-
  The reference program's result, composed down to its four arguments, is the function G of the
  shared specification: softmax(k·qᵀ/32)·v entry by entry.

  The stages are read one at a time at an index given by its coordinates:
  the three projections q = x·Wq, k = x·Wk, v = x·Wv are sums of 1024 products; the score of row i
  against row j is Σ_d k(i,d)·q(j,d) (the transposed q read at (d,j) is q at (j,d)), divided by
  sqrt(1024) = 32, which at the extended reals is the product with 1/32; the row maximum is the fold
  of max from −∞ over the 4096 columns, and taking max with −∞ once more changes nothing; the
  shifted exponentials are summed from 0 over the columns; each exponential is divided by its
  row's sum; and the result is the sum over j of these weights times v(j,d).
-/
import proofs.«138961_j39316130628151_2_alg».proof.Proof.Gen.ReferenceIdeal.Read
import proofs.«138961_j39316130628151_2_alg».proof.Proof.Gen.ReferenceIdeal.Run
import proofs.«138961_j39316130628151_2_alg».proof.Proof.Spec
import proofs.«138961_j39316130628151_2_alg».proof.Proof.Words

noncomputable section

namespace Cert.RefValue

open Cert.ReferenceIdeal Cert.ReferenceIdeal.Gen Cert.ReferenceIdeal.Read
open Idealize.ShloMosaic Idealize.ShloMosaic.ValueIdx Cert.Spec

/-! ## The index maps of the stages, at coordinates -/

/-- A projection's left operand index: row i, feature k. -/
theorem lidx_v0 (i : Fin 4096) (d k : Fin 1024) : lidx_main_v0 (ix2 i d) k = ix2 i k :=
  funext fun a => Fin.ext (by match a with | ⟨0, _⟩ => rfl | ⟨1, _⟩ => rfl)
/-- A projection's right operand index: feature k, column d. -/
theorem ridx_v0 (i : Fin 4096) (d k : Fin 1024) : ridx_main_v0 (ix2 i d) k = ix2 k d :=
  funext fun a => Fin.ext (by match a with | ⟨0, _⟩ => rfl | ⟨1, _⟩ => rfl)
theorem lidx_v1 (i : Fin 4096) (d k : Fin 1024) : lidx_main_v1 (ix2 i d) k = ix2 i k :=
  funext fun a => Fin.ext (by match a with | ⟨0, _⟩ => rfl | ⟨1, _⟩ => rfl)
theorem ridx_v1 (i : Fin 4096) (d k : Fin 1024) : ridx_main_v1 (ix2 i d) k = ix2 k d :=
  funext fun a => Fin.ext (by match a with | ⟨0, _⟩ => rfl | ⟨1, _⟩ => rfl)
theorem lidx_v2 (i : Fin 4096) (d k : Fin 1024) : lidx_main_v2 (ix2 i d) k = ix2 i k :=
  funext fun a => Fin.ext (by match a with | ⟨0, _⟩ => rfl | ⟨1, _⟩ => rfl)
theorem ridx_v2 (i : Fin 4096) (d k : Fin 1024) : ridx_main_v2 (ix2 i d) k = ix2 k d :=
  funext fun a => Fin.ext (by match a with | ⟨0, _⟩ => rfl | ⟨1, _⟩ => rfl)
/-- The transpose read at (d, j) reads its operand at (j, d). -/
theorem idx_v3 (d : Fin 1024) (j : Fin 4096) : idx_main_v3 (ix2 d j) = ix2 j d :=
  funext fun a => Fin.ext (by match a with | ⟨0, _⟩ => rfl | ⟨1, _⟩ => rfl)
/-- The score product's left operand index: key row i, feature d. -/
theorem lidx_v4 (i j : Fin 4096) (d : Fin 1024) : lidx_main_v4 (ix2 i j) d = ix2 i d :=
  funext fun a => Fin.ext (by match a with | ⟨0, _⟩ => rfl | ⟨1, _⟩ => rfl)
/-- The score product's right operand index: feature d, query row j (of the transposed q). -/
theorem ridx_v4 (i j : Fin 4096) (d : Fin 1024) : ridx_main_v4 (ix2 i j) d = ix2 d j :=
  funext fun a => Fin.ext (by match a with | ⟨0, _⟩ => rfl | ⟨1, _⟩ => rfl)
/-- The row maximum broadcast to a column and then across the row is read at the row. -/
theorem idx_v11_v12 (i j : Fin 4096) : idx_main_v11 (idx_main_v12 (ix2 i j)) = ix1 i :=
  funext fun a => Fin.ext (by match a with | ⟨0, _⟩ => rfl)
/-- The row sum's operand index: row i, column k. -/
theorem idx_v15 (i k : Fin 4096) : idx_main_v15 (ix1 i) k = ix2 i k :=
  funext fun a => Fin.ext (by match a with | ⟨0, _⟩ => rfl | ⟨1, _⟩ => rfl)
/-- The row sum broadcast to a column and then across the row is read at the row. -/
theorem idx_v16_v17 (i j : Fin 4096) : idx_main_v16 (idx_main_v17 (ix2 i j)) = ix1 i :=
  funext fun a => Fin.ext (by match a with | ⟨0, _⟩ => rfl)
/-- The final product's left operand index: row i, column j of the weights. -/
theorem lidx_v19 (i j : Fin 4096) (d : Fin 1024) : lidx_main_v19 (ix2 i d) j = ix2 i j :=
  funext fun a => Fin.ext (by match a with | ⟨0, _⟩ => rfl | ⟨1, _⟩ => rfl)
/-- The final product's right operand index: row j, column d of v. -/
theorem ridx_v19 (i j : Fin 4096) (d : Fin 1024) : ridx_main_v19 (ix2 i d) j = ix2 j d :=
  funext fun a => Fin.ext (by match a with | ⟨0, _⟩ => rfl | ⟨1, _⟩ => rfl)

variable (x : FVec Ideal S4096x1024 .f32) (wq wk wv : FVec Ideal S1024x1024 .f32)

/-! ## The projections -/

/-- q = x·Wq at (i, d). -/
theorem v0_eq (i : Fin 4096) (d : Fin 1024) : val_main_v0 (F := Ideal) x wq (ix2 i d) = proj x wq i d := by
  rw [val_main_v0_apply]
  unfold proj
  exact Finset.sum_congr rfl fun k _ => by rw [lidx_v0, ridx_v0]

/-- k = x·Wk at (i, d). -/
theorem v1_eq (i : Fin 4096) (d : Fin 1024) : val_main_v1 (F := Ideal) x wk (ix2 i d) = proj x wk i d := by
  rw [val_main_v1_apply]
  unfold proj
  exact Finset.sum_congr rfl fun k _ => by rw [lidx_v1, ridx_v1]

/-- v = x·Wv at (i, d). -/
theorem v2_eq (i : Fin 4096) (d : Fin 1024) : val_main_v2 (F := Ideal) x wv (ix2 i d) = proj x wv i d := by
  rw [val_main_v2_apply]
  unfold proj
  exact Finset.sum_congr rfl fun k _ => by rw [lidx_v2, ridx_v2]

/-- The transposed q at (d, j) is q at (j, d). -/
theorem v3_eq (d : Fin 1024) (j : Fin 4096) : val_main_v3 (F := Ideal) x wq (ix2 d j) = proj x wq j d := by
  rw [val_main_v3_apply, idx_v3, v0_eq]

/-! ## The scores -/

/-- k·qᵀ at (i, j): the sum over the 1024 features of k(i,d)·q(j,d). -/
theorem v4_eq (i j : Fin 4096) :
    val_main_v4 (F := Ideal) x wq wk (ix2 i j) = ∑ d : Fin 1024, proj x wk i d * proj x wq j d := by
  rw [val_main_v4_apply]
  exact Finset.sum_congr rfl fun d _ => by rw [lidx_v4, ridx_v4, v1_eq, v3_eq]

/-- Divided by sqrt(1024): the scaled score. -/
theorem v7_eq (i j : Fin 4096) : val_main_v7 (F := Ideal) x wq wk (ix2 i j) = score x wq wk i j := by
  rw [val_main_v7_apply, val_main_v6_apply, val_main_v5_apply, val_main_cst_apply, v4_eq]
  unfold score
  exact Words.div_sqrt_1024 _

/-! ## The row maximum -/

/-- A maximum-reduction over the columns from the word −∞, read at row i of ANY array y: the fold
    of max from −∞ over the 4096 columns of that row. -/
theorem rowMax_read (y : FVec Ideal S4096x4096 .f32) (i : Fin 4096) :
    Host.reduce FloatOps.maximumf y (val_main_cst_0 (F := Ideal)) reducesTo_S4096x4096_S4096_d1 h_S_ (ix1 i)
      = (Finset.univ : Finset (Fin 4096)).fold max ⊥ (fun j => y (ix2 i j)) := by
  have h : S4096x4096.Reduces [1] S4096 := by decide
  refine (Host.reduce_eq_fold_single FloatOps.maximumf y _ reducesTo_S4096x4096_S4096_d1 h h_S_ (ix1 i)).trans ?_
  have e1 : val_main_cst_0 (F := Ideal) (Shape.Idx.first h_S_) = (⊥ : EReal) :=
    (val_main_cst_0_apply _).trans Words.ofBits_neg_inf
  have e2 : (y ∘ h.lift (ix1 i)) = fun j : Fin 4096 => y (ix2 i j) :=
    funext fun k => congrArg y (funext fun a => Fin.ext (by match a with | ⟨0, _⟩ => rfl | ⟨1, _⟩ => rfl))
  rw [e1, e2]
  rfl

/-- The reference's row maximum at row i. -/
theorem v8_eq (i : Fin 4096) : val_main_v8 (F := Ideal) x wq wk (ix1 i) = rowMax x wq wk i := by
  unfold val_main_v8
  refine (rowMax_read _ i).trans ?_
  unfold rowMax
  exact congrArg (fun f : Fin 4096 → EReal => (Finset.univ : Finset (Fin 4096)).fold max ⊥ f)
    (funext fun j => v7_eq x wq wk i j)

/-- Taking the maximum with −∞ once more changes nothing. -/
theorem v10_eq (i : Fin 4096) : val_main_v10 (F := Ideal) x wq wk (ix1 i) = rowMax x wq wk i := by
  rw [val_main_v10_apply, val_main_v9_apply, val_main_cst_1_apply, v8_eq]
  show max (Ideal.ofBits .f32 0xFF800000#32) _ = _
  rw [Words.ofBits_neg_inf]
  exact max_eq_right bot_le

/-- The row maximum broadcast across the row. -/
theorem v12_eq (i j : Fin 4096) : val_main_v12 (F := Ideal) x wq wk (ix2 i j) = rowMax x wq wk i := by
  rw [val_main_v12_apply, val_main_v11_apply, idx_v11_v12, v10_eq]

/-! ## The shifted exponentials and their row sums -/

/-- exp(s(i,j) − M_i). -/
theorem v14_eq (i j : Fin 4096) :
    val_main_v14 (F := Ideal) x wq wk (ix2 i j) = Ideal.exp (score x wq wk i j - rowMax x wq wk i) := by
  rw [val_main_v14_apply, val_main_v13_apply, v7_eq, v12_eq]
  rfl

/-- The row sum from the word 0. -/
theorem v15_eq (i : Fin 4096) : val_main_v15 (F := Ideal) x wq wk (ix1 i) = rowSum x wq wk i := by
  rw [val_main_v15_apply, val_main_cst_2_apply]
  show Ideal.ofBits .f32 0x00000000#32 + _ = _
  rw [Ideal.ofBits_zero_f32, zero_add]
  unfold rowSum
  exact Finset.sum_congr rfl fun k _ => by rw [idx_v15, v14_eq]

/-- The row sum broadcast across the row. -/
theorem v17_eq (i j : Fin 4096) : val_main_v17 (F := Ideal) x wq wk (ix2 i j) = rowSum x wq wk i := by
  rw [val_main_v17_apply, val_main_v16_apply, idx_v16_v17, v15_eq]

/-- The softmax weight of column j in row i. -/
theorem v18_eq (i j : Fin 4096) :
    val_main_v18 (F := Ideal) x wq wk (ix2 i j)
      = Ideal.div (Ideal.exp (score x wq wk i j - rowMax x wq wk i)) (rowSum x wq wk i) := by
  rw [val_main_v18_apply, v14_eq, v17_eq]
  rfl

/-! ## The result -/

/-- The reference's result, as a function of its four arguments, is G. -/
theorem result_eq : val_main_v19 (F := Ideal) x wq wk wv = G x wq wk wv := by
  funext idx
  obtain ⟨i, d, rfl⟩ : ∃ (i : Fin 4096) (d : Fin 1024), idx = ix2 i d := ⟨idx 0, idx 1, eq_ix2 idx⟩
  rw [val_main_v19_apply]
  show _ = ∑ j : Fin 4096,
    Ideal.div (Ideal.exp (score x wq wk i j - rowMax x wq wk i)) (rowSum x wq wk i) * proj x wv j d
  exact Finset.sum_congr rfl fun j _ => by rw [lidx_v19, ridx_v19, v18_eq, v2_eq]

/-! ## The reference's run, with its result stated by G -/

section Run

open Idealize.ShloMosaic.TcCoe Idealize.SL.Sem Idealize.ShloMosaic.StableHlo

/-- From any memory with zero counters every weakly fair execution of the reference terminates
    with its result G of the four argument arrays as launched, and the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).1.trans (val_main_v19_eq _ _ _ _)).trans (result_eq _ _ _ _), (h c).2⟩)
    (Cert.ReferenceIdeal.Value.run (F := Ideal) m ρ)

end Run

end Cert.RefValue

end
-- ==== Proof.lean ====
/-
  The certificate of the attention kernel against its reference.

  Both programs compute softmax(k·qᵀ/32)·v with q = x·Wq, k = x·Wk, v = x·Wv.  The reference does it in one go
  on [4096,4096] score matrices; the kernel first computes the three projections block by block, then, for each block
  of 512 rows of k, streams over the 8 blocks of 512 rows of q and v keeping a running row maximum, a running
  normaliser and a running accumulator, rescaling the last two by exp(old maximum − new maximum) at every step, and
  divides at the end.  Over the extended reals, with finite inputs, every intermediate value is a real number and
  the rescalings telescope: exp(m − m')·exp(s − m) = exp(s − m'); so the streamed quotient is the softmax-weighted sum.

  The three frame claims: each program runs to its end and leaves its four argument arrays as launched (the kernel
  programs' by the run of their two regions in sequence, the reference's by the run of its host operations).  The
  idealisation rewrote nothing, so the preservation claim is trivial.
-/
import proofs.«138961_j39316130628151_2_alg».proof.Defs
import proofs.«138961_j39316130628151_2_alg».proof.Proof.Gen.Kernel
import proofs.«138961_j39316130628151_2_alg».proof.Proof.Gen.KernelIdeal
import proofs.«138961_j39316130628151_2_alg».proof.Proof.Gen.ReferenceIdeal
import proofs.«138961_j39316130628151_2_alg».proof.Proof.Gen.Pre_finite_inputs
import proofs.«138961_j39316130628151_2_alg».proof.Proof.KBRun
import proofs.«138961_j39316130628151_2_alg».proof.Proof.KIRun
import proofs.«138961_j39316130628151_2_alg».proof.Proof.KIValue
import proofs.«138961_j39316130628151_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealised programs end with the specification's array of the (agreeing) arguments as their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (Cert.KernelIdeal.Hand.kernel_value m hpre c), (h c).2⟩)
      (Cert.KernelIdeal.Hand.run_value m ρ)
  · refine (θ_run Cert.ReferenceIdeal.defs _ _).mono (fun _ h c => ⟨(h c).1.trans ?_, (h c).2⟩) (Cert.RefValue.run_G m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
